-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S4x128x128 : Shape := ⟨3, ![4, 128, 128]⟩
abbrev S4x128 : Shape := ⟨2, ![4, 128]⟩
abbrev S128x100 : Shape := ⟨2, ![128, 100]⟩
abbrev S100 : Shape := ⟨1, ![100]⟩
abbrev S100x4 : Shape := ⟨2, ![100, 4]⟩
abbrev S4 : Shape := ⟨1, ![4]⟩
abbrev S2x1600000 : Shape := ⟨2, ![2, 1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x100 : S_.BroadcastsInDim S128x100 (![] : Fin 0 → Fin S128x100.rank)
  reducesTo_S128x100_S_d0_1 : S128x100.ReducesTo [0, 1] S_
  bcast_S_S100 : S_.BroadcastsInDim S100 (![] : Fin 0 → Fin S100.rank)
  reducesTo_S100_S_d0 : S100.ReducesTo [0] S_
  bcast_S_S100x4 : S_.BroadcastsInDim S100x4 (![] : Fin 0 → Fin S100x4.rank)
  reducesTo_S100x4_S_d0_1 : S100x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg4 : FVec F S100 .f32) (main_arg5 : FVec F S100x4 .f32) (main_arg6 : FVec F S4 .f32) (main_v13 : IVec S_ 1) (main_v16 : IVec S128x100 1) : IVec S_ 1 :=
  let main_c_5 : IVec S_ 1 := constantI S_ 1 1#1
  let main_v17 : IVec S_ 1 := (fun x v => Host.reduce IntOp.andi x v reducesTo_S128x100_S_d0_1 h_S_) main_v16 main_c_5
  let main_v18 : IVec S_ 1 := andi main_v13 main_v17
  let main_v19 : FVec F S100 .f32 := Host.absf main_arg4
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S100x4 .f32 := Host.absf main_arg5
  let main_cst_8 : FVec F S_ .f32 := constant S_ .f32 0x7F800000#32
  let main_v25 : FVec F S100x4 .f32 := broadcastInDim S100x4 ![] bcast_S_S100x4 main_cst_8
  let main_v26 : IVec S100x4 1 := cmpf .olt main_v24 main_v25
  let main_c_9 : IVec S_ 1 := constantI S_ 1 1#1
  let main_v27 : IVec S_ 1 := (fun x v => Host.reduce IntOp.andi x v reducesTo_S100x4_S_d0_1 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  main_v33

def fn {F : FTy → Type} [FloatOps F] (main_arg0 : FVec F S100000x128 .f32) (main_arg1 : FVec F S4x128x128 .f32) (main_arg2 : FVec F S4x128 .f32) (main_arg3 : FVec F S128x100 .f32) (main_arg4 : FVec F S100 .f32) (main_arg5 : FVec F S100x4 .f32) (main_arg6 : FVec F S4 .f32) (main_arg7 : IVec S2x1600000 32) (main_arg8 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4x128x128 .f32 := Host.absf main_arg1
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg2
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S128x100 .f32 := Host.absf main_arg3
  let main_cst_4 : FVec F S_ .f32 := constant S_ .f32 0x7F800000#32
  let main_v15 : FVec F S128x100 .f32 := broadcastInDim S128x100 ![] bcast_S_S128x100 main_cst_4
  let main_v16 : IVec S128x100 1 := cmpf .olt main_v14 main_v15
  fn_part1 (F := F) main_arg4 main_arg5 main_arg6 main_v13 main_v16
-- ==== Kernel.lean ====
abbrev S100000x128 : Shape := ⟨2, ![100000, 128]⟩
abbrev S4x128x128 : Shape := ⟨3, ![4, 128, 128]⟩
abbrev S4x128 : Shape := ⟨2, ![4, 128]⟩
abbrev S128x100 : Shape := ⟨2, ![128, 100]⟩
abbrev S100 : Shape := ⟨1, ![100]⟩
abbrev S100x4 : Shape := ⟨2, ![100, 4]⟩
abbrev S4 : Shape := ⟨1, ![4]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128x128 : Shape := ⟨3, ![1, 128, 128]⟩
abbrev S128x128 : Shape := ⟨2, ![128, 128]⟩
abbrev S5000x128 : Shape := ⟨2, ![5000, 128]⟩
abbrev S1700000x128 : Shape := ⟨2, ![1700000, 128]⟩
abbrev S1x128 : Shape := ⟨2, ![1, 128]⟩
abbrev S128 : Shape := ⟨1, ![128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S512x4 : Shape := ⟨2, ![512, 4]⟩
abbrev S512x100 : Shape := ⟨2, ![512, 100]⟩
abbrev S1x100 : Shape := ⟨2, ![1, 100]⟩
abbrev S1x4 : Shape := ⟨2, ![1, 4]⟩

abbrev nBuf : Space → Nat
  | .hbm => 151
  | .vmem => 34
  | .smem => 0
  | _ => 0

abbrev hbmTy0_0 (i : Nat) : BufTy := match i % 128 with
  | 0 => ⟨S100000x128, .f32⟩
  | 1 => ⟨S4x128x128, .f32⟩
  | 2 => ⟨S4x128, .f32⟩
  | 3 => ⟨S128x100, .f32⟩
  | 4 => ⟨S100, .f32⟩
  | 5 => ⟨S100x4, .f32⟩
  | 6 => ⟨S4, .f32⟩
  | 7 => ⟨S2x1600000, .i32⟩
  | 8 => ⟨S100000, .i32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S1x128x128, .f32⟩
  | 50 => ⟨S128x128, .f32⟩
  | 51 => ⟨S100000x128, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S128, .f32⟩
  | 70 => ⟨S1x128x128, .f32⟩
  | 71 => ⟨S128x128, .f32⟩
  | 72 => ⟨S100000x128, .f32⟩
  | 73 => ⟨S_, .i32⟩
  | 74 => ⟨S1700000, .i32⟩
  | 75 => ⟨S1700000, .i1⟩
  | 76 => ⟨S_, .i32⟩
  | 77 => ⟨S1700000, .i32⟩
  | 78 => ⟨S1700000, .i32⟩
  | 79 => ⟨S1700000, .i32⟩
  | 80 => ⟨S1700000x1, .i32⟩
  | 81 => ⟨S1700000x128, .f32⟩
  | 82 => ⟨S1700000x1, .f32⟩
  | 83 => ⟨S1700000x128, .f32⟩
  | 84 => ⟨S1700000x128, .f32⟩
  | 85 => ⟨S_, .f32⟩
  | 86 => ⟨S100000x128, .f32⟩
  | 87 => ⟨S1700000x1, .i32⟩
  | 88 => ⟨S100000x128, .f32⟩
  | 89 => ⟨S1x128, .f32⟩
  | 90 => ⟨S128, .f32⟩
  | 91 => ⟨S1x128x128, .f32⟩
  | 92 => ⟨S128x128, .f32⟩
  | 93 => ⟨S100000x128, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000x128, .f32⟩
  | 103 => ⟨S1700000x1, .f32⟩
  | 104 => ⟨S1700000x128, .f32⟩
  | 105 => ⟨S1700000x128, .f32⟩
  | 106 => ⟨S_, .f32⟩
  | 107 => ⟨S100000x128, .f32⟩
  | 108 => ⟨S1700000x1, .i32⟩
  | 109 => ⟨S100000x128, .f32⟩
  | 110 => ⟨S1x128, .f32⟩
  | 111 => ⟨S128, .f32⟩
  | 112 => ⟨S1x128x128, .f32⟩
  | 113 => ⟨S128x128, .f32⟩
  | 114 => ⟨S100000x128, .f32⟩
  | 115 => ⟨S_, .i32⟩
  | 116 => ⟨S1700000, .i32⟩
  | 117 => ⟨S1700000, .i1⟩
  | 118 => ⟨S_, .i32⟩
  | 119 => ⟨S1700000, .i32⟩
  | 120 => ⟨S1700000, .i32⟩
  | 121 => ⟨S1700000, .i32⟩
  | 122 => ⟨S1700000x1, .i32⟩
  | 123 => ⟨S1700000x128, .f32⟩
  | 124 => ⟨S1700000x1, .f32⟩
  | 125 => ⟨S1700000x128, .f32⟩
  | 126 => ⟨S1700000x128, .f32⟩
  | 127 => ⟨S_, .f32⟩
  | _ => ⟨S100000x128, .f32⟩

abbrev hbmTy0_1 (i : Nat) : BufTy := match i % 128 with
  | 0 => ⟨S100000x128, .f32⟩
  | 1 => ⟨S1700000x1, .i32⟩
  | 2 => ⟨S100000x128, .f32⟩
  | 3 => ⟨S1x128, .f32⟩
  | 4 => ⟨S128, .f32⟩
  | 5 => ⟨S100000x128, .f32⟩
  | 6 => ⟨S_, .f32⟩
  | 7 => ⟨S512x128, .f32⟩
  | 8 => ⟨S100000x1, .i32⟩
  | 9 => ⟨S512x128, .f32⟩
  | 10 => ⟨S_, .f32⟩
  | 11 => ⟨S100000, .f32⟩
  | 12 => ⟨S_, .f32⟩
  | 13 => ⟨S512, .f32⟩
  | 14 => ⟨S100000x1, .i32⟩
  | 15 => ⟨S512, .f32⟩
  | 16 => ⟨S_, .f32⟩
  | 17 => ⟨S512, .f32⟩
  | 18 => ⟨S512, .f32⟩
  | 19 => ⟨S512x1, .f32⟩
  | 20 => ⟨S512x128, .f32⟩
  | 21 => ⟨S512x128, .f32⟩
  | 22 => ⟨S512x4, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | .local _ .vmem, ⟨28, _⟩ => ⟨S512x128, .f32⟩
  | .local _ .vmem, ⟨29, _⟩ => ⟨S128x100, .f32⟩
  | .local _ .vmem, ⟨30, _⟩ => ⟨S100, .f32⟩
  | .local _ .vmem, ⟨31, _⟩ => ⟨S100x4, .f32⟩
  | .local _ .vmem, ⟨32, _⟩ => ⟨S4, .f32⟩
  | .local _ .vmem, ⟨33, _⟩ => ⟨S512x4, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_12 : Ref sig .tc := ⟨.hbm, 94, rfl⟩
abbrev main_v69 : Ref sig .tc := ⟨.hbm, 95, rfl⟩
abbrev main_v70 : Ref sig .tc := ⟨.hbm, 96, rfl⟩
abbrev main_c_13 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_14 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_c_15 : Ref sig .tc := ⟨.hbm, 115, rfl⟩
abbrev main_v87 : Ref sig .tc := ⟨.hbm, 116, rfl⟩
abbrev main_v88 : Ref sig .tc := ⟨.hbm, 117, rfl⟩
abbrev main_c_16 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_17 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_18 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_19 : Ref sig .tc := ⟨.hbm, 138, rfl⟩
abbrev main_v106 : Ref sig .tc := ⟨.hbm, 139, rfl⟩
abbrev main_cst_20 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_21 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg4_0 : Ref sig .tc := ⟨.vmem, 32, rfl⟩
abbrev cc5_stg5_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem1_0 : DmaSem sig := 29
abbrev cc5_sem2_0 : DmaSem sig := 30
abbrev cc5_sem3_0 : DmaSem sig := 31
abbrev cc5_sem4_0 : DmaSem sig := 32
abbrev cc5_sem5_0 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S512x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S128x100 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S100 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S100x4 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S4 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S512x4 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S4x128x128_S1x128x128_0_0_0 : S4x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S4x128_S1x128_0_0 : S4x128.Slices ![0, 0] S1x128
  shapeCasts_S1x128_S128 : S1x128.ShapeCasts S128
  slices_S4x128x128_S1x128x128_1_0_0 : S4x128x128.Slices ![1, 0, 0] S1x128x128
  shapeCasts_S5000x128_S5000x128 : S5000x128.ShapeCasts S5000x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x100_S128x100_0_0 : ∀ a, (![0, 0] : Fin 2 → Nat) a + S128x100.size a ≤ S128x100.size a
  h_S128x100 : 0 < S128x100.numel
  inb_S100_S100_0 : ∀ a, (![0] : Fin 1 → Nat) a + S100.size a ≤ S100.size a
  h_S100 : 0 < S100.numel
  shapeCasts_S100_S1x100 : S100.ShapeCasts S1x100
  broadcasts_S1x100_S512x100 : S1x100.Broadcasts S512x100
  inb_S100x4_S100x4_0_0 : ∀ a, (![0, 0] : Fin 2 → Nat) a + S100x4.size a ≤ S100x4.size a
  h_S100x4 : 0 < S100x4.numel
  inb_S4_S4_0 : ∀ a, (![0] : Fin 1 → Nat) a + S4.size a ≤ S4.size a
  h_S4 : 0 < S4.numel
  shapeCasts_S4_S1x4 : S4.ShapeCasts S1x4
  broadcasts_S1x4_S512x4 : S1x4.Broadcasts S512x4
  inb_S512x4_S512x4_0_0 : ∀ a, (![0, 0] : Fin 2 → Nat) a + S512x4.size a ≤ S512x4.size a
  h_S512x4 : 0 < S512x4.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x100_S512x100_1_0_0_1_n_n_wf : DotDims.WF S512x128 S128x100 S512x100 [1] [0] [0] [1] [] []
  dot_S512x100_S100x4_S512x4_1_0_0_1_n_n_wf : DotDims.WF S512x100 S100x4 S512x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128.size a ≤ S128.size a
  hwx4_1 : ∀ i : grid4.Coords, EltTy.bits .f32 = 32 ∨ (Rect.block (s := S128) S128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S512x128.size a ≤ S512x128.size a
  hwx5_0 : ∀ i : grid5.Coords, EltTy.bits .f32 = 32 ∨ (Rect.block (s := S512x128) S512x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x100.size a ≤ S128x100.size a
  hwx5_1 : ∀ i : grid5.Coords, EltTy.bits .f32 = 32 ∨ (Rect.block (s := S128x100) S128x100.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S100.size a ≤ S100.size a
  hwx5_2 : ∀ i : grid5.Coords, EltTy.bits .f32 = 32 ∨ (Rect.block (s := S100) S100.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S100x4.size a ≤ S100x4.size a
  hwx5_3 : ∀ i : grid5.Coords, EltTy.bits .f32 = 32 ∨ (Rect.block (s := S100x4) S100x4.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S4.size a ≤ S4.size a
  hwx5_4 : ∀ i : grid5.Coords, EltTy.bits .f32 = 32 ∨ (Rect.block (s := S4) S4.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S512x4.size a ≤ S512x4.size a
  hwx5_5 : ∀ i : grid5.Coords, EltTy.bits .f32 = 32 ∨ (Rect.block (s := S512x4) S512x4.size (cc5_transform_5 i) (hinb5_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x100_S512x100_1_0_0_1_n_n : DotDims S512x128 S128x100 S512x100 where
  lhsContracting := [1]
  rhsContracting := [0]
  lhsNonContracting := [0]
  rhsNonContracting := [1]
  lhsBatch := []
  rhsBatch := []
  wf := dot_S512x128_S128x100_S512x100_1_0_0_1_n_n_wf
def dot_S512x100_S100x4_S512x4_1_0_0_1_n_n : DotDims S512x100 S100x4 S512x4 where
  lhsContracting := [1]
  rhsContracting := [0]
  lhsNonContracting := [0]
  rhsNonContracting := [1]
  lhsBatch := []
  rhsBatch := []
  wf := dot_S512x100_S100x4_S512x4_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v63) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v81) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v83) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v85) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v86) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v99) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v101) S128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v102) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v114) S512x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg3) S128x100.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg4) S100.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg5) S100x4.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg6) S4.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v115) S512x4.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x128 : Shape := ⟨2, ![100000, 128]⟩
abbrev S4x128x128 : Shape := ⟨3, ![4, 128, 128]⟩
abbrev S4x128 : Shape := ⟨2, ![4, 128]⟩
abbrev S128x100 : Shape := ⟨2, ![128, 100]⟩
abbrev S100 : Shape := ⟨1, ![100]⟩
abbrev S100x4 : Shape := ⟨2, ![100, 4]⟩
abbrev S4 : Shape := ⟨1, ![4]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1700000x128 : Shape := ⟨2, ![1700000, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S512x100 : Shape := ⟨2, ![512, 100]⟩
abbrev S1x100 : Shape := ⟨2, ![1, 100]⟩
abbrev S512x4 : Shape := ⟨2, ![512, 4]⟩
abbrev S1x4 : Shape := ⟨2, ![1, 4]⟩

abbrev nBuf : Space → Nat
  | .hbm => 181
  | .vmem => 0
  | .smem => 0
  | _ => 0

abbrev hbmTy0_0 (i : Nat) : BufTy := match i % 128 with
  | 0 => ⟨S100000x128, .f32⟩
  | 1 => ⟨S4x128x128, .f32⟩
  | 2 => ⟨S4x128, .f32⟩
  | 3 => ⟨S128x100, .f32⟩
  | 4 => ⟨S100, .f32⟩
  | 5 => ⟨S100x4, .f32⟩
  | 6 => ⟨S4, .f32⟩
  | 7 => ⟨S2x1600000, .i32⟩
  | 8 => ⟨S100000, .i32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S1x128x128, .f32⟩
  | 50 => ⟨S128x128, .f32⟩
  | 51 => ⟨S1x128, .f32⟩
  | 52 => ⟨S128, .f32⟩
  | 53 => ⟨S100000x128, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x128, .f32⟩
  | 63 => ⟨S1700000x1, .f32⟩
  | 64 => ⟨S1700000x128, .f32⟩
  | 65 => ⟨S1700000x128, .f32⟩
  | 66 => ⟨S_, .f32⟩
  | 67 => ⟨S100000x128, .f32⟩
  | 68 => ⟨S1700000x1, .i32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S1x128x128, .f32⟩
  | 77 => ⟨S128x128, .f32⟩
  | 78 => ⟨S1x128, .f32⟩
  | 79 => ⟨S128, .f32⟩
  | 80 => ⟨S100000x128, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1700000x128, .f32⟩
  | 90 => ⟨S1700000x1, .f32⟩
  | 91 => ⟨S1700000x128, .f32⟩
  | 92 => ⟨S1700000x128, .f32⟩
  | 93 => ⟨S_, .f32⟩
  | 94 => ⟨S100000x128, .f32⟩
  | 95 => ⟨S1700000x1, .i32⟩
  | 96 => ⟨S100000x128, .f32⟩
  | 97 => ⟨S1x128, .f32⟩
  | 98 => ⟨S100000x128, .f32⟩
  | 99 => ⟨S100000x128, .f32⟩
  | 100 => ⟨S_, .f32⟩
  | 101 => ⟨S100000x128, .f32⟩
  | 102 => ⟨S100000x128, .f32⟩
  | 103 => ⟨S1x128x128, .f32⟩
  | 104 => ⟨S128x128, .f32⟩
  | 105 => ⟨S1x128, .f32⟩
  | 106 => ⟨S128, .f32⟩
  | 107 => ⟨S100000x128, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000x128, .f32⟩
  | 117 => ⟨S1700000x1, .f32⟩
  | 118 => ⟨S1700000x128, .f32⟩
  | 119 => ⟨S1700000x128, .f32⟩
  | 120 => ⟨S_, .f32⟩
  | 121 => ⟨S100000x128, .f32⟩
  | 122 => ⟨S1700000x1, .i32⟩
  | 123 => ⟨S100000x128, .f32⟩
  | 124 => ⟨S1x128, .f32⟩
  | 125 => ⟨S100000x128, .f32⟩
  | 126 => ⟨S100000x128, .f32⟩
  | 127 => ⟨S_, .f32⟩
  | _ => ⟨S100000x128, .f32⟩

abbrev hbmTy0_1 (i : Nat) : BufTy := match i % 128 with
  | 0 => ⟨S100000x128, .f32⟩
  | 1 => ⟨S100000x128, .f32⟩
  | 2 => ⟨S1x128x128, .f32⟩
  | 3 => ⟨S128x128, .f32⟩
  | 4 => ⟨S1x128, .f32⟩
  | 5 => ⟨S128, .f32⟩
  | 6 => ⟨S100000x128, .f32⟩
  | 7 => ⟨S_, .i32⟩
  | 8 => ⟨S1700000, .i32⟩
  | 9 => ⟨S1700000, .i1⟩
  | 10 => ⟨S_, .i32⟩
  | 11 => ⟨S1700000, .i32⟩
  | 12 => ⟨S1700000, .i32⟩
  | 13 => ⟨S1700000, .i32⟩
  | 14 => ⟨S1700000x1, .i32⟩
  | 15 => ⟨S1700000x128, .f32⟩
  | 16 => ⟨S1700000x1, .f32⟩
  | 17 => ⟨S1700000x128, .f32⟩
  | 18 => ⟨S1700000x128, .f32⟩
  | 19 => ⟨S_, .f32⟩
  | 20 => ⟨S100000x128, .f32⟩
  | 21 => ⟨S1700000x1, .i32⟩
  | 22 => ⟨S100000x128, .f32⟩
  | 23 => ⟨S1x128, .f32⟩
  | 24 => ⟨S100000x128, .f32⟩
  | 25 => ⟨S100000x128, .f32⟩
  | 26 => ⟨S_, .f32⟩
  | 27 => ⟨S512x128, .f32⟩
  | 28 => ⟨S100000x1, .i32⟩
  | 29 => ⟨S512x128, .f32⟩
  | 30 => ⟨S_, .f32⟩
  | 31 => ⟨S100000, .f32⟩
  | 32 => ⟨S_, .f32⟩
  | 33 => ⟨S512, .f32⟩
  | 34 => ⟨S100000x1, .i32⟩
  | 35 => ⟨S512, .f32⟩
  | 36 => ⟨S_, .f32⟩
  | 37 => ⟨S512, .f32⟩
  | 38 => ⟨S512, .f32⟩
  | 39 => ⟨S512x1, .f32⟩
  | 40 => ⟨S512x128, .f32⟩
  | 41 => ⟨S512x128, .f32⟩
  | 42 => ⟨S512x100, .f32⟩
  | 43 => ⟨S1x100, .f32⟩
  | 44 => ⟨S512x100, .f32⟩
  | 45 => ⟨S512x100, .f32⟩
  | 46 => ⟨S_, .f32⟩
  | 47 => ⟨S512x100, .f32⟩
  | 48 => ⟨S512x100, .f32⟩
  | 49 => ⟨S512x4, .f32⟩
  | 50 => ⟨S1x4, .f32⟩
  | 51 => ⟨S512x4, .f32⟩
  | 52 => ⟨S512x4, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_c_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call1_cst : Ref sig .tc := ⟨.hbm, 73, rfl⟩
abbrev main_call1_v0 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_9 : Ref sig .tc := ⟨.hbm, 81, rfl⟩
abbrev main_v57 : Ref sig .tc := ⟨.hbm, 82, rfl⟩
abbrev main_v58 : Ref sig .tc := ⟨.hbm, 83, rfl⟩
abbrev main_c_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_11 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_call2_cst : Ref sig .tc := ⟨.hbm, 100, rfl⟩
abbrev main_call2_v0 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_12 : Ref sig .tc := ⟨.hbm, 108, rfl⟩
abbrev main_v79 : Ref sig .tc := ⟨.hbm, 109, rfl⟩
abbrev main_v80 : Ref sig .tc := ⟨.hbm, 110, rfl⟩
abbrev main_c_13 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_14 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_call3_cst : Ref sig .tc := ⟨.hbm, 127, rfl⟩
abbrev main_call3_v0 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_c_15 : Ref sig .tc := ⟨.hbm, 135, rfl⟩
abbrev main_v101 : Ref sig .tc := ⟨.hbm, 136, rfl⟩
abbrev main_v102 : Ref sig .tc := ⟨.hbm, 137, rfl⟩
abbrev main_c_16 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_cst_17 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_cst_18 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_cst_19 : Ref sig .tc := ⟨.hbm, 158, rfl⟩
abbrev main_v120 : Ref sig .tc := ⟨.hbm, 159, rfl⟩
abbrev main_cst_20 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_cst_21 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_call4_cst : Ref sig .tc := ⟨.hbm, 174, rfl⟩
abbrev main_call4_v0 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S100_S1x100_1 : S100.BroadcastsInDim S1x100 (![1] : Fin 1 → Fin S1x100.rank)
  bcast_S1x100_S512x100_0_1 : S1x100.BroadcastsInDim S512x100 (![0, 1] : Fin 2 → Fin S512x100.rank)
  bcast_S_S512x100 : S_.BroadcastsInDim S512x100 (![] : Fin 0 → Fin S512x100.rank)
  bcast_S4_S1x4_1 : S4.BroadcastsInDim S1x4 (![1] : Fin 1 → Fin S1x4.rank)
  bcast_S1x4_S512x4_0_1 : S1x4.BroadcastsInDim S512x4 (![0, 1] : Fin 2 → Fin S512x4.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x100_S512x100_1_0_0_1_n_n_wf : DotDims.WF S512x128 S128x100 S512x100 [1] [0] [0] [1] [] []
  dot_S512x100_S100x4_S512x4_1_0_0_1_n_n_wf : DotDims.WF S512x100 S100x4 S512x4 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x100_S512x100_1_0_0_1_n_n : DotDims S512x128 S128x100 S512x100 where
  lhsContracting := [1]
  rhsContracting := [0]
  lhsNonContracting := [0]
  rhsNonContracting := [1]
  lhsBatch := []
  rhsBatch := []
  wf := dot_S512x128_S128x100_S512x100_1_0_0_1_n_n_wf
def dot_S512x100_S100x4_S512x4_1_0_0_1_n_n : DotDims S512x100 S100x4 S512x4 where
  lhsContracting := [1]
  rhsContracting := [0]
  lhsNonContracting := [0]
  rhsNonContracting := [1]
  lhsBatch := []
  rhsBatch := []
  wf := dot_S512x100_S100x4_S512x4_1_0_0_1_n_n_wf

class Facts : Prop extends Facts₀ where

variable [Facts]
-- ==== Proof.KernelRun.lean ====
/-
  The idealized kernel's run with its result buffer NAMED.

  @main of the kernel is fourteen segments: stretches of host operations alternating with six grid regions.  The
  buffer contents at each boundary are a fold from the launch memory: a stretch applies its operations, a region
  replaces each of its arrays by what its write-backs leave.  The last boundary's contents are `W14`; every weakly
  fair execution ends with every unscoped buffer at `W14`, so in particular the result buffer `main_v115` (the
  sixth region's output) ends at `W14 … main_v115`, and the nine arguments end as launched.
-/
import proofs.«170649_j40037685134216_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates, faultless, with the result buffer at the last
    boundary's contents and the arguments as launched. -/
theorem run : θ_run defs (onTc (τ := τ) (main (F := F))) ⟨m, fun _ => 0, ρ⟩ (fun r => ∀ c : Dev nD,
      r.2.mem ((c.tc : Thread nD τ).loc main_v115) = W14 m ρ c (Proc.devRef .tc main_v115)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v115 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c)⟩)

end Cert.KernelIdeal.ResultRun

end
-- ==== Proof.TileDot.lean ====
/-
  The one piece of arithmetic that joins the kernel to its reference in the four graph-convolution layers.

  The reference multiplies the whole node-feature array `L : [100000, 128]` by a weight matrix `W : [128, 128]` in one
  `dot_general`.  The kernel cuts the 100000 rows into 20 tiles of 5000 rows and multiplies each tile by `W`, accumulating
  into zeros.  Entry `(p, q)` of tile `T`'s product is `∑ k, l (p, k) * w (k, q)`, entry `(T·5000 + p, q)` of the whole
  product is `∑ k, L (T·5000 + p, k) * W (k, q)`: equal as soon as the tile's rows are those rows of `L` and `w` is `W`.
  Nothing beyond renaming the summation index is used, so no finiteness is needed.
-/
import proofs.«170649_j40037685134216_1_alg».proof.Proof.Gen.KernelIdeal
import proofs.«170649_j40037685134216_1_alg».proof.Proof.Gen.ReferenceIdeal
import Idealize.ShloMosaic.Lib.ValueIdx
import Idealize.ShloMosaic.PureOps.Ideal.Laws

noncomputable section

namespace Cert.Gcn

open Idealize.ShloMosaic Idealize.ShloMosaic.ValueIdx

/-! ## The operand indices of the two products: one contracted axis of length 128 -/

theorem tile_lhs0 (i : Cert.KernelIdeal.S5000x128.Idx) (q : Cert.KernelIdeal.dot_S5000x128_S128x128_S5000x128_1_0_0_1_n_n.contr.Idx) : (Cert.KernelIdeal.dot_S5000x128_S128x128_S5000x128_1_0_0_1_n_n.lhsIdx i q 0).val = (i 0).val := by
  unfold DotDims.lhsIdx
  rw [dif_neg (show ¬(0 : Fin Cert.KernelIdeal.S5000x128.rank) ∈ Cert.KernelIdeal.dot_S5000x128_S128x128_S5000x128_1_0_0_1_n_n.lhsBatch by decide), dif_pos (show (0 : Fin Cert.KernelIdeal.S5000x128.rank) ∈ Cert.KernelIdeal.dot_S5000x128_S128x128_S5000x128_1_0_0_1_n_n.lhsNonContracting by decide)]
  rfl
theorem tile_lhs1 (i : Cert.KernelIdeal.S5000x128.Idx) (q : Cert.KernelIdeal.dot_S5000x128_S128x128_S5000x128_1_0_0_1_n_n.contr.Idx) : (Cert.KernelIdeal.dot_S5000x128_S128x128_S5000x128_1_0_0_1_n_n.lhsIdx i q 1).val = (q ⟨0, by decide⟩).val :=
  Cert.KernelIdeal.dot_S5000x128_S128x128_S5000x128_1_0_0_1_n_n.lhsIdx_val_of_single rfl i q
theorem tile_rhs0 (i : Cert.KernelIdeal.S5000x128.Idx) (q : Cert.KernelIdeal.dot_S5000x128_S128x128_S5000x128_1_0_0_1_n_n.contr.Idx) : (Cert.KernelIdeal.dot_S5000x128_S128x128_S5000x128_1_0_0_1_n_n.rhsIdx i q 0).val = (q ⟨0, by decide⟩).val :=
  Cert.KernelIdeal.dot_S5000x128_S128x128_S5000x128_1_0_0_1_n_n.rhsIdx_val_of_single rfl i q
theorem tile_rhs1 (i : Cert.KernelIdeal.S5000x128.Idx) (q : Cert.KernelIdeal.dot_S5000x128_S128x128_S5000x128_1_0_0_1_n_n.contr.Idx) : (Cert.KernelIdeal.dot_S5000x128_S128x128_S5000x128_1_0_0_1_n_n.rhsIdx i q 1).val = (i 1).val := by
  unfold DotDims.rhsIdx
  rw [dif_neg (show ¬(1 : Fin Cert.KernelIdeal.S128x128.rank) ∈ Cert.KernelIdeal.dot_S5000x128_S128x128_S5000x128_1_0_0_1_n_n.rhsBatch by decide), dif_pos (show (1 : Fin Cert.KernelIdeal.S128x128.rank) ∈ Cert.KernelIdeal.dot_S5000x128_S128x128_S5000x128_1_0_0_1_n_n.rhsNonContracting by decide)]
  rfl

theorem whole_lhs0 (i : Cert.ReferenceIdeal.S100000x128.Idx) (q : Cert.ReferenceIdeal.dot_S100000x128_S128x128_S100000x128_1_0_0_1_n_n.contr.Idx) : (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem whole_lhs1 (i : Cert.ReferenceIdeal.S100000x128.Idx) (q : Cert.ReferenceIdeal.dot_S100000x128_S128x128_S100000x128_1_0_0_1_n_n.contr.Idx) : (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem whole_rhs0 (i : Cert.ReferenceIdeal.S100000x128.Idx) (q : Cert.ReferenceIdeal.dot_S100000x128_S128x128_S100000x128_1_0_0_1_n_n.contr.Idx) : (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem whole_rhs1 (i : Cert.ReferenceIdeal.S100000x128.Idx) (q : Cert.ReferenceIdeal.dot_S100000x128_S128x128_S100000x128_1_0_0_1_n_n.contr.Idx) : (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- Entry `(p, q)` of a tile's product into zeros: the sum over the 128 contracted positions. -/
theorem tileMatmul_apply {φ₁ φ₂ : FTy} (l : FVec Ideal Cert.KernelIdeal.S5000x128 φ₁) (w : FVec Ideal Cert.KernelIdeal.S128x128 φ₂) (p : Fin 5000) (q : Fin 128) :
    matmul Cert.KernelIdeal.dot_S5000x128_S128x128_S5000x128_1_0_0_1_n_n none l w (constant (F := Ideal) Cert.KernelIdeal.S5000x128 .f32 0x00000000#32) (ix2 p q)
      = ∑ k : Fin 128, l (ix2 p k) * w (ix2 k q) := by
  simp only [matmul]
  rw [Ideal.matmul_constant_zero_apply, ← Equiv.sum_comp (contrEquiv1 Cert.KernelIdeal.dot_S5000x128_S128x128_S5000x128_1_0_0_1_n_n 128 rfl rfl).symm]
  refine Finset.sum_congr rfl fun k _ => ?_
  have hk := contrEquiv1_symm_val Cert.KernelIdeal.dot_S5000x128_S128x128_S5000x128_1_0_0_1_n_n 128 rfl rfl k
  have el : Cert.KernelIdeal.dot_S5000x128_S128x128_S5000x128_1_0_0_1_n_n.lhsIdx (ix2 p q) ((contrEquiv1 Cert.KernelIdeal.dot_S5000x128_S128x128_S5000x128_1_0_0_1_n_n 128 rfl rfl).symm k) = ix2 p k := funext fun a => Fin.ext (by
    match a with
    | ⟨0, _⟩ => exact tile_lhs0 _ _
    | ⟨1, _⟩ => exact (tile_lhs1 _ _).trans hk)
  have er : Cert.KernelIdeal.dot_S5000x128_S128x128_S5000x128_1_0_0_1_n_n.rhsIdx (ix2 p q) ((contrEquiv1 Cert.KernelIdeal.dot_S5000x128_S128x128_S5000x128_1_0_0_1_n_n 128 rfl rfl).symm k) = ix2 k q := funext fun a => Fin.ext (by
    match a with
    | ⟨0, _⟩ => exact (tile_rhs0 _ _).trans hk
    | ⟨1, _⟩ => exact tile_rhs1 _ _)
  rw [el, er]

/-- Entry `(p, q)` of the whole product on the host: the same sum. -/
theorem wholeDot_apply {φ₁ φ₂ : FTy} (L : FVec Ideal Cert.ReferenceIdeal.S100000x128 φ₁) (W : FVec Ideal Cert.ReferenceIdeal.S128x128 φ₂) (p : Fin 100000) (q : Fin 128) :
    Host.dotGeneral Cert.ReferenceIdeal.dot_S100000x128_S128x128_S100000x128_1_0_0_1_n_n none L W (ix2 p q) = ∑ k : Fin 128, L (ix2 p k) * W (ix2 k q) := by
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 p q) ((contrEquiv1 Cert.ReferenceIdeal.dot_S100000x128_S128x128_S100000x128_1_0_0_1_n_n 128 rfl rfl).symm k) = ix2 p k := funext fun a => Fin.ext (by
    match a with
    | ⟨0, _⟩ => exact whole_lhs0 _ _
    | ⟨1, _⟩ => exact (whole_lhs1 _ _).trans hk)
  have er : Cert.ReferenceIdeal.dot_S100000x128_S128x128_S100000x128_1_0_0_1_n_n.rhsIdx (ix2 p q) ((contrEquiv1 Cert.ReferenceIdeal.dot_S100000x128_S128x128_S100000x128_1_0_0_1_n_n 128 rfl rfl).symm k) = ix2 k q := funext fun a => Fin.ext (by
    match a with
    | ⟨0, _⟩ => exact (whole_rhs0 _ _).trans hk
    | ⟨1, _⟩ => exact whole_rhs1 _ _)
  rw [el, er]

/-- Row `p` of tile `T`'s product is row `T·5000 + p` of the whole product, when the tile's row `p` is that row of the
    whole left operand and the two right operands agree on column `q`. -/
theorem tile_dot {φ₁ φ₂ φ₃ φ₄ : FTy} (L : FVec Ideal Cert.ReferenceIdeal.S100000x128 φ₁) (W : FVec Ideal Cert.ReferenceIdeal.S128x128 φ₂)
    (l : FVec Ideal Cert.KernelIdeal.S5000x128 φ₃) (w : FVec Ideal Cert.KernelIdeal.S128x128 φ₄)
    (T : ℕ) (p : Fin 5000) (q : Fin 128) (hrow : T * 5000 + p.val < 100000)
    (hl : ∀ k : Fin 128, (l (ix2 p k) : EReal) = L (ix2 ⟨T * 5000 + p.val, hrow⟩ k))
    (hw : ∀ k : Fin 128, (w (ix2 k q) : EReal) = W (ix2 k q)) :
    matmul Cert.KernelIdeal.dot_S5000x128_S128x128_S5000x128_1_0_0_1_n_n none l w (constant (F := Ideal) Cert.KernelIdeal.S5000x128 .f32 0x00000000#32) (ix2 p q)
      = Host.dotGeneral Cert.ReferenceIdeal.dot_S100000x128_S128x128_S100000x128_1_0_0_1_n_n none L W (ix2 ⟨T * 5000 + p.val, hrow⟩ q) := by
  rw [tileMatmul_apply, wholeDot_apply]
  exact Finset.sum_congr rfl fun k _ => by rw [hl k, hw k]

end Cert.Gcn

end
-- ==== Proof.LibIdealLayout.lean ====
/-
  General facts about array operations read at the exact (extended-real) instance, for any shapes.

  * A matrix product accumulated into the zero array is the host's `dot_general` of the same operands: both are, entry by
    entry, the plain sum over the contracted index (there is no rounding and no accumulation order at this instance).
  * One row `v : [b]` spread over all rows of an `[a, b]` array reads, at `(p, c)`, `v c` — in the two spellings programs
    use: a cast to `[1, b]` followed by a vector broadcast, and two `broadcast_in_dim`s (`[b] → [1, b] → [a, b]`).
  * A scalar spread over an array reads the scalar at every index.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.IdealLayout

open Idealize.ShloMosaic Idealize.ShloMosaic.ValueIdx

/-- At the exact instance a `tpu.matmul` into the zero accumulator IS the host's `dot_general` with the same dimension
    numbers: entry `j` of either is `∑ k, lhs (lhsIdx j k) * rhs (rhsIdx j k)`. -/
theorem matmul_zero_eq_dotGeneral {sl sr so : Shape} {φ₁ φ₂ : FTy} (d : DotDims sl sr so) (prec : Option ContractPrecision)
    (l : FVec Ideal sl φ₁) (r : FVec Ideal sr φ₂) :
    matmul d prec l r (constant (F := Ideal) so .f32 0x00000000#32) = Host.dotGeneral d prec l r := by
  funext j
  simp only [matmul, Host.dotGeneral]
  rw [Ideal.matmul_constant_zero_apply, Ideal.dotGeneral_apply]

/-- The same with the operands' float formats free: a matrix product into zeros of one pair of arrays is the host's
    `dot_general` of any pair with the same entries (at the exact instance an entry is an extended real whatever its
    format, so a body's bf16 casts change nothing). -/
theorem matmul_zero_eq_dotGeneral_of_eq {sl sr so : Shape} {φ₁ φ₂ ψ₁ ψ₂ : FTy} (d : DotDims sl sr so) (prec : Option ContractPrecision)
    (l : FVec Ideal sl φ₁) (r : FVec Ideal sr φ₂) (l' : FVec Ideal sl ψ₁) (r' : FVec Ideal sr ψ₂)
    (hl : ∀ i, (l i : EReal) = l' i) (hr : ∀ i, (r i : EReal) = r' i) :
    (matmul d prec l r (constant (F := Ideal) so .f32 0x00000000#32) : so.Idx → EReal) = Host.dotGeneral d prec l' r' := by
  funext j
  simp only [matmul, Host.dotGeneral]
  rw [Ideal.matmul_constant_zero_apply, Ideal.dotGeneral_apply]
  exact Finset.sum_congr rfl fun k _ => by rw [hl, hr]

/-- A row cast `[b] → [1, b]` and broadcast over `a` rows reads the row's entry of the column. -/
theorem broadcastTo_row_apply {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- Two `broadcast_in_dim`s, `[b] → [1, b]` along the last axis and `[1, b] → [a, b]`, read the row's entry of the column. -/
theorem broadcastInDim_row_apply {α : Type} {a b : ℕ} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1])
    (p : Fin a) (c : Fin b) :
    broadcastInDim ⟨2, ![a, b]⟩ ![0, 1] h2 (broadcastInDim ⟨2, ![1, b]⟩ ![1] h1 v) (ix2 p c) = v (ix1 c) := by
  have hc : c.val = if b = 1 then 0 else c.val := by
    split
    · have := c.isLt; omega
    · rfl
  refine (broadcastInDim_apply ![0, 1] h2 _ (ix2 p c) (ix2 (0 : Fin 1) c) (fun ax => ?_)).trans
    (broadcastInDim_apply ![1] h1 v (ix2 (0 : Fin 1) c) (ix1 c) (fun ax => ?_))
  · match ax with
    | ⟨0, _⟩ => show 0 = if (1 : Nat) = 1 then 0 else p.val; rw [if_pos rfl]
    | ⟨1, _⟩ => exact hc
  · match ax with
    | ⟨0, _⟩ => exact hc

/-- A scalar spread over an array by `broadcast_in_dim` reads the scalar everywhere. -/
theorem broadcastInDim_scalar_apply {α : Type} {t : Shape} (dims : Fin 0 → Fin t.rank)
    (h : (⟨0, ![]⟩ : Shape).BroadcastsInDim t dims) (x : (⟨0, ![]⟩ : Shape).Idx → α) (j : t.Idx) :
    broadcastInDim t dims h x j = x (fun a => a.elim0) :=
  broadcastInDim_apply dims h x j (fun a => a.elim0) (fun a => a.elim0)

end Idealize.ShloMosaic.IdealLayout

end
-- ==== Proof.Payloads.lean ====
/-
  What each grid body stores, read at one entry, against the reference's whole-array operations.

  At the exact instance a change of float format is the identity, so a body's bf16 casts vanish; a cast of a block to its
  own shape is the identity; the bias vector cast to one row and broadcast over the tile's rows adds `b k` in column `k`.
  * The first layer's body stores `tile · W`.
  * A hidden layer's body stores `max (tile + bias row, 0) · W`: with `hidden A b = max (A + bias rows, 0)` on the whole
    array (the reference's `relu (… + b)`), entry `(p, q)` of tile `T` is entry `(T·5000 + p, q)` of `hidden A b · W`.
  * The last layer's body stores `tile + bias row`.
-/
import proofs.«170649_j40037685134216_1_alg».proof.Proof.Gen.KernelIdeal.Skeleton
import proofs.«170649_j40037685134216_1_alg».proof.Proof.TileDot
import proofs.«170649_j40037685134216_1_alg».proof.Proof.LibIdealLayout

noncomputable section

namespace Cert.KernelIdeal.Body

open Cert.KernelIdeal Cert.KernelIdeal.Gen Idealize.ShloMosaic Idealize.ShloMosaic.TcCoe Idealize.SL.Sem
open Idealize.ShloMosaic.ValueIdx Idealize.ShloMosaic.IdealLayout Cert.Gcn

/-- The bias vector as rows of the whole node array: `[128] → [1, 128] → [100000, 128]`. -/
def biasRows (b : FVec Ideal Cert.ReferenceIdeal.S128 .f32) : FVec Ideal Cert.ReferenceIdeal.S100000x128 .f32 :=
  broadcastInDim Cert.ReferenceIdeal.S100000x128 ![0, 1] Cert.ReferenceIdeal.Gen.bcast_S1x128_S100000x128_0_1 (broadcastInDim Cert.ReferenceIdeal.S1x128 ![1] Cert.ReferenceIdeal.Gen.bcast_S128_S1x128_1 b)

theorem biasRows_apply (b : FVec Ideal Cert.ReferenceIdeal.S128 .f32) (i : Fin 100000) (k : Fin 128) : biasRows b (ix2 i k) = b (ix1 k) :=
  broadcastInDim_row_apply b _ _ i k

/-- A hidden layer's input on the whole node array: the aggregate plus the bias rows, clamped at zero. -/
def hidden (A : FVec Ideal Cert.ReferenceIdeal.S100000x128 .f32) (b : FVec Ideal Cert.ReferenceIdeal.S128 .f32) : FVec Ideal Cert.ReferenceIdeal.S100000x128 .f32 :=
  maximumf (addf A (biasRows b))
    (broadcastInDim Cert.ReferenceIdeal.S100000x128 ![] Cert.ReferenceIdeal.Gen.bcast_S_S100000x128 (constant (F := Ideal) Cert.ReferenceIdeal.S_ .f32 0x00000000#32))

theorem hidden_apply (A : FVec Ideal Cert.ReferenceIdeal.S100000x128 .f32) (b : FVec Ideal Cert.ReferenceIdeal.S128 .f32) (i : Fin 100000) (k : Fin 128) :
    hidden A b (ix2 i k) = max (A (ix2 i k) + b (ix1 k)) (Ideal.ofBits .f32 0x00000000#32) := by
  unfold hidden
  exact congrArg₂ max (congrArg₂ (· + ·) rfl (biasRows_apply b i k)) (broadcastInDim_scalar_apply _ _ _ _)

/-- The first layer's body: entry `(p, q)` of `tile · W` is entry `(T·5000 + p, q)` of `X · W`. -/
theorem linear_point (X : FVec Ideal Cert.ReferenceIdeal.S100000x128 .f32) (W : FVec Ideal Cert.ReferenceIdeal.S128x128 .f32)
    (x0 : Vec Ideal S5000x128 .f32) (x1 : Vec Ideal S128x128 .f32)
    (T : ℕ) (p : Fin 5000) (q : Fin 128) (hrow : T * 5000 + p.val < 100000)
    (h0 : ∀ k : Fin 128, (x0 (ix2 p k) : EReal) = X (ix2 ⟨T * 5000 + p.val, hrow⟩ k))
    (h1 : ∀ k : Fin 128, (x1 (ix2 k q) : EReal) = W (ix2 k q)) :
    k0_pay1 (F := Ideal) x0 x1 (ix2 p q) = Host.dotGeneral Cert.ReferenceIdeal.dot_S100000x128_S128x128_S100000x128_1_0_0_1_n_n none X W (ix2 ⟨T * 5000 + p.val, hrow⟩ q) := by
  unfold k0_pay1
  refine tile_dot X W _ _ T p q hrow (fun k => ?_) (fun k => ?_)
  · exact h0 k
  · exact (congrFun (shapeCast_self x1 _) _).trans (h1 k)

/-- Layer 2's body: add the bias row to the tile, clamp at zero, multiply by the weights — entry `(p, q)` is the whole
    product of the clamped biased array at row `T·5000 + p`. -/
theorem fused1_point (A : FVec Ideal Cert.ReferenceIdeal.S100000x128 .f32) (b : FVec Ideal Cert.ReferenceIdeal.S128 .f32) (W : FVec Ideal Cert.ReferenceIdeal.S128x128 .f32)
    (x0 : Vec Ideal S5000x128 .f32) (x1 : Vec Ideal S128 .f32) (x2 : Vec Ideal S128x128 .f32)
    (T : ℕ) (p : Fin 5000) (q : Fin 128) (hrow : T * 5000 + p.val < 100000)
    (h0 : ∀ k : Fin 128, (x0 (ix2 p k) : EReal) = A (ix2 ⟨T * 5000 + p.val, hrow⟩ k))
    (h1 : ∀ k : Fin 128, (x1 (ix1 k) : EReal) = b (ix1 k))
    (h2 : ∀ k : Fin 128, (x2 (ix2 k q) : EReal) = W (ix2 k q)) :
    k1_pay1 (F := Ideal) x0 x1 x2 (ix2 p q) = Host.dotGeneral Cert.ReferenceIdeal.dot_S100000x128_S128x128_S100000x128_1_0_0_1_n_n none (hidden A b) W (ix2 ⟨T * 5000 + p.val, hrow⟩ q) := by
  unfold k1_pay1
  refine tile_dot (hidden A b) W _ _ T p q hrow (fun k => ?_) (fun k => ?_)
  · rw [hidden_apply, ← h0 k, ← h1 k]
    exact congrArg₂ max (congrArg₂ (· + ·) (congrFun (shapeCast_self x0 _) _)
      ((broadcastTo_row_apply _ _ _ p k).trans (congrFun (shapeCast_self x1 _) _))) rfl
  · exact (congrFun (shapeCast_self x2 _) _).trans (h2 k)

/-- Layer 3's body: add the bias row to the tile, clamp at zero, multiply by the weights — entry `(p, q)` is the whole
    product of the clamped biased array at row `T·5000 + p`. -/
theorem fused2_point (A : FVec Ideal Cert.ReferenceIdeal.S100000x128 .f32) (b : FVec Ideal Cert.ReferenceIdeal.S128 .f32) (W : FVec Ideal Cert.ReferenceIdeal.S128x128 .f32)
    (x0 : Vec Ideal S5000x128 .f32) (x1 : Vec Ideal S128 .f32) (x2 : Vec Ideal S128x128 .f32)
    (T : ℕ) (p : Fin 5000) (q : Fin 128) (hrow : T * 5000 + p.val < 100000)
    (h0 : ∀ k : Fin 128, (x0 (ix2 p k) : EReal) = A (ix2 ⟨T * 5000 + p.val, hrow⟩ k))
    (h1 : ∀ k : Fin 128, (x1 (ix1 k) : EReal) = b (ix1 k))
    (h2 : ∀ k : Fin 128, (x2 (ix2 k q) : EReal) = W (ix2 k q)) :
    k2_pay1 (F := Ideal) x0 x1 x2 (ix2 p q) = Host.dotGeneral Cert.ReferenceIdeal.dot_S100000x128_S128x128_S100000x128_1_0_0_1_n_n none (hidden A b) W (ix2 ⟨T * 5000 + p.val, hrow⟩ q) := by
  unfold k2_pay1
  refine tile_dot (hidden A b) W _ _ T p q hrow (fun k => ?_) (fun k => ?_)
  · rw [hidden_apply, ← h0 k, ← h1 k]
    exact congrArg₂ max (congrArg₂ (· + ·) (congrFun (shapeCast_self x0 _) _)
      ((broadcastTo_row_apply _ _ _ p k).trans (congrFun (shapeCast_self x1 _) _))) rfl
  · exact (congrFun (shapeCast_self x2 _) _).trans (h2 k)

/-- Layer 4's body: add the bias row to the tile, clamp at zero, multiply by the weights — entry `(p, q)` is the whole
    product of the clamped biased array at row `T·5000 + p`. -/
theorem fused3_point (A : FVec Ideal Cert.ReferenceIdeal.S100000x128 .f32) (b : FVec Ideal Cert.ReferenceIdeal.S128 .f32) (W : FVec Ideal Cert.ReferenceIdeal.S128x128 .f32)
    (x0 : Vec Ideal S5000x128 .f32) (x1 : Vec Ideal S128 .f32) (x2 : Vec Ideal S128x128 .f32)
    (T : ℕ) (p : Fin 5000) (q : Fin 128) (hrow : T * 5000 + p.val < 100000)
    (h0 : ∀ k : Fin 128, (x0 (ix2 p k) : EReal) = A (ix2 ⟨T * 5000 + p.val, hrow⟩ k))
    (h1 : ∀ k : Fin 128, (x1 (ix1 k) : EReal) = b (ix1 k))
    (h2 : ∀ k : Fin 128, (x2 (ix2 k q) : EReal) = W (ix2 k q)) :
    k3_pay1 (F := Ideal) x0 x1 x2 (ix2 p q) = Host.dotGeneral Cert.ReferenceIdeal.dot_S100000x128_S128x128_S100000x128_1_0_0_1_n_n none (hidden A b) W (ix2 ⟨T * 5000 + p.val, hrow⟩ q) := by
  unfold k3_pay1
  refine tile_dot (hidden A b) W _ _ T p q hrow (fun k => ?_) (fun k => ?_)
  · rw [hidden_apply, ← h0 k, ← h1 k]
    exact congrArg₂ max (congrArg₂ (· + ·) (congrFun (shapeCast_self x0 _) _)
      ((broadcastTo_row_apply _ _ _ p k).trans (congrFun (shapeCast_self x1 _) _))) rfl
  · exact (congrFun (shapeCast_self x2 _) _).trans (h2 k)

/-- The last layer's body: the tile plus the bias row. -/
theorem bias_point (A : FVec Ideal Cert.ReferenceIdeal.S100000x128 .f32) (b : FVec Ideal Cert.ReferenceIdeal.S128 .f32)
    (x0 : Vec Ideal S5000x128 .f32) (x1 : Vec Ideal S128 .f32)
    (T : ℕ) (p : Fin 5000) (q : Fin 128) (hrow : T * 5000 + p.val < 100000)
    (h0 : (x0 (ix2 p q) : EReal) = A (ix2 ⟨T * 5000 + p.val, hrow⟩ q))
    (h1 : (x1 (ix1 q) : EReal) = b (ix1 q)) :
    k4_pay1 (F := Ideal) x0 x1 (ix2 p q) = addf A (biasRows b) (ix2 ⟨T * 5000 + p.val, hrow⟩ q) := by
  unfold k4_pay1
  exact congrArg₂ (· + ·) ((congrFun (shapeCast_self x0 _) _).trans h0)
    (((broadcastTo_row_apply _ _ _ p q).trans (congrFun (shapeCast_self x1 _) _)).trans (h1.trans (biasRows_apply b _ q).symm))

end Cert.KernelIdeal.Body

end
-- ==== Proof.HeadSpec.lean ====
/-
  The read-out head on whole arrays, as the reference spells it: `max (P · W1 + b1 rows, 0) · W2 + b2 rows`, the products
  the host's `dot_general`, a bias spread over the 512 rows by two `broadcast_in_dim`s.
-/
import proofs.«170649_j40037685134216_1_alg».proof.Proof.Gen.ReferenceIdeal
import Idealize.ShloMosaic.PureOps.Ideal

noncomputable section

namespace Cert.KernelIdeal.HeadBody

open Idealize.ShloMosaic Idealize.ShloMosaic.TcCoe

/-- The head on whole arrays, in the reference's spelling. -/
def head (P : FVec Ideal Cert.ReferenceIdeal.S512x128 .f32) (W1 : FVec Ideal Cert.ReferenceIdeal.S128x100 .f32) (b1 : FVec Ideal Cert.ReferenceIdeal.S100 .f32)
    (W2 : FVec Ideal Cert.ReferenceIdeal.S100x4 .f32) (b2 : FVec Ideal Cert.ReferenceIdeal.S4 .f32) : FVec Ideal Cert.ReferenceIdeal.S512x4 .f32 :=
  addf (Host.dotGeneral Cert.ReferenceIdeal.dot_S512x100_S100x4_S512x4_1_0_0_1_n_n none
      (maximumf (addf (Host.dotGeneral Cert.ReferenceIdeal.dot_S512x128_S128x100_S512x100_1_0_0_1_n_n none P W1)
          (broadcastInDim Cert.ReferenceIdeal.S512x100 ![0, 1] Cert.ReferenceIdeal.Gen.bcast_S1x100_S512x100_0_1 (broadcastInDim Cert.ReferenceIdeal.S1x100 ![1] Cert.ReferenceIdeal.Gen.bcast_S100_S1x100_1 b1)))
        (broadcastInDim Cert.ReferenceIdeal.S512x100 ![] Cert.ReferenceIdeal.Gen.bcast_S_S512x100 (constant (F := Ideal) Cert.ReferenceIdeal.S_ .f32 0x00000000#32))) W2)
    (broadcastInDim Cert.ReferenceIdeal.S512x4 ![0, 1] Cert.ReferenceIdeal.Gen.bcast_S1x4_S512x4_0_1 (broadcastInDim Cert.ReferenceIdeal.S1x4 ![1] Cert.ReferenceIdeal.Gen.bcast_S4_S1x4_1 b2))

end Cert.KernelIdeal.HeadBody

end
-- ==== Proof.Glue.lean ====
/-
  The operations the kernel and the reference share, named once, and the reference's stages written over them.

  Both programs build the same edge lists from `edge_index` (the given edges followed by one self-loop per node), the same
  symmetric normalisation `norm e = dinv (row e) · dinv (col e)`, and in every layer send a node array `xw` through the same
  message passing: gather the source rows, scale each by its edge's `norm`, and sum into the target rows
  (`aggOf`).  After the last layer both pool node rows by graph: the sum of a graph's rows divided by `max (count, 1)`
  (`poolOf`).  None of these chains is ever opened: the two sides apply the SAME chain, so it is enough that what goes in
  is equal.  What differs between the programs is only how the dense maps between the chains are computed.
-/
import proofs.«170649_j40037685134216_1_alg».proof.Proof.RefRead
import proofs.«170649_j40037685134216_1_alg».proof.Proof.Payloads
import proofs.«170649_j40037685134216_1_alg».proof.Proof.HeadSpec

set_option maxRecDepth 16384

noncomputable section

namespace Cert.Gcn

open Cert.ReferenceIdeal Cert.ReferenceIdeal.Gen Cert.ReferenceIdeal.ReadP Idealize.ShloMosaic Idealize.ShloMosaic.TcCoe
open Cert.KernelIdeal.Body (hidden biasRows)
open Cert.KernelIdeal.HeadBody (head)

/-- An edge list's node ids as start indices of a gather: a negative id wraps once (`i < 0 ? i + 100000 : i`). -/
def wrapCol (r : IVec S1700000 32) : IVec S1700000x1 32 :=
  broadcastInDim S1700000x1 ![0] bcast_S1700000_S1700000x1_0
    (select (cmpi .slt r (broadcastInDim S1700000 ![] bcast_S_S1700000 (constantI S_ 32 0#32)))
      (addi r (broadcastInDim S1700000 ![] bcast_S_S1700000 (constantI S_ 32 100000#32))) r)

/-- The edge weights: `dinv` at the edge's source times `dinv` at its target. -/
def normOf (row col : IVec S1700000 32) (dinv : FVec Ideal S100000 .f32) : FVec Ideal S1700000 .f32 :=
  mulf (Host.gather gather_S100000_S1700000x1_S1700000_n_0_n_n_0_1_1 dinv (wrapCol row))
    (Host.gather gather_S100000_S1700000x1_S1700000_n_0_n_n_0_1_1 dinv (wrapCol col))

/-- One round of message passing: gather the source rows of `xw`, scale by the edge weights, sum into the target rows. -/
def aggOf (xw : FVec Ideal S100000x128 .f32) (row col : IVec S1700000 32) (norm : FVec Ideal S1700000 .f32) : FVec Ideal S100000x128 .f32 :=
  Host.scatterAdd scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 col)
    (mulf (Host.gather gather_S100000x128_S1700000x1_S1700000x128_1_0_n_n_0_1_1128 xw (wrapCol row))
      (broadcastInDim S1700000x128 ![0, 1] bcast_S1700000x1_S1700000x128_0_1 (broadcastInDim S1700000x1 ![0] bcast_S1700000_S1700000x1_0 norm)))

/-- Mean pooling by graph: the sum of each graph's node rows over `max (number of its nodes, 1)`. -/
def poolOf (h : FVec Ideal S100000x128 .f32) (batch : IVec S100000 32) : FVec Ideal S512x128 .f32 :=
  Host.divf
    (Host.scatterAdd scatter_S512x128_S100000x1_S100000x128_1_0_0_1
      (broadcastInDim S512x128 ![] bcast_S_S512x128 (constant (F := Ideal) S_ .f32 0x00000000#32))
      (broadcastInDim S100000x1 ![0] bcast_S100000_S100000x1_0 batch) h)
    (broadcastInDim S512x128 ![0, 1] bcast_S512x1_S512x128_0_1 (broadcastInDim S512x1 ![0] bcast_S512_S512x1_0
      (maximumf (Host.scatterAdd scatter_S512_S100000x1_S100000_n_0_0_1
          (broadcastInDim S512 ![] bcast_S_S512 (constant (F := Ideal) S_ .f32 0x00000000#32))
          (broadcastInDim S100000x1 ![0] bcast_S100000_S100000x1_0 batch)
          (broadcastInDim S100000 ![] bcast_S_S100000 (constant (F := Ideal) S_ .f32 0x3F800000#32)))
        (broadcastInDim S512 ![] bcast_S_S512 (constant (F := Ideal) S_ .f32 0x3F800000#32)))))

/-! ## The reference's stages over these names -/

section Ref
variable (x0 : FVec Ideal S100000x128 .f32) (x1 : FVec Ideal S4x128x128 .f32) (x2 : FVec Ideal S4x128 .f32)
  (x3 : FVec Ideal S128x100 .f32) (x4 : FVec Ideal S100 .f32) (x5 : FVec Ideal S100x4 .f32) (x6 : FVec Ideal S4 .f32)
  (x7 : IVec S2x1600000 32) (x8 : IVec S100000 32)

theorem ref_dinv : val_main_v14 (F := Ideal) x7 = select (val_main_v12 (F := Ideal) x7) (val_main_v13 (F := Ideal) x7)
    (broadcastInDim S100000 ![] bcast_S_S100000 (id (val_main_cst_2 (F := Ideal)))) := rfl

theorem ref_norm : val_main_v29 (F := Ideal) x7 = normOf (val_main_v3 (F := Ideal) x7) (val_main_v6 (F := Ideal) x7) (val_main_v14 (F := Ideal) x7) := rfl

theorem ref_xw0 : val_main_v34 (F := Ideal) x0 x1 = Host.dotGeneral (φ₁ := .f32) (φ₂ := .f32) dot_S100000x128_S128x128_S100000x128_1_0_0_1_n_n none x0 (val_main_v31 (F := Ideal) x1) := rfl

theorem ref_agg0 : val_main_v47 (F := Ideal) x0 x1 x7 = aggOf (val_main_v34 (F := Ideal) x0 x1) (val_main_v3 (F := Ideal) x7) (val_main_v6 (F := Ideal) x7) (val_main_v29 (F := Ideal) x7) := rfl

theorem ref_xw1 : val_main_v56 (F := Ideal) x0 x1 x2 x7 = Host.dotGeneral (φ₁ := .f32) (φ₂ := .f32) dot_S100000x128_S128x128_S100000x128_1_0_0_1_n_n none
    (hidden (val_main_v47 (F := Ideal) x0 x1 x7) (val_main_v33 (F := Ideal) x2)) (val_main_v53 (F := Ideal) x1) := rfl

theorem ref_agg1 : val_main_v69 (F := Ideal) x0 x1 x2 x7 = aggOf (val_main_v56 (F := Ideal) x0 x1 x2 x7) (val_main_v3 (F := Ideal) x7) (val_main_v6 (F := Ideal) x7) (val_main_v29 (F := Ideal) x7) := rfl

theorem ref_xw2 : val_main_v78 (F := Ideal) x0 x1 x2 x7 = Host.dotGeneral (φ₁ := .f32) (φ₂ := .f32) dot_S100000x128_S128x128_S100000x128_1_0_0_1_n_n none
    (hidden (val_main_v69 (F := Ideal) x0 x1 x2 x7) (val_main_v55 (F := Ideal) x2)) (val_main_v75 (F := Ideal) x1) := rfl

theorem ref_agg2 : val_main_v91 (F := Ideal) x0 x1 x2 x7 = aggOf (val_main_v78 (F := Ideal) x0 x1 x2 x7) (val_main_v3 (F := Ideal) x7) (val_main_v6 (F := Ideal) x7) (val_main_v29 (F := Ideal) x7) := rfl

theorem ref_xw3 : val_main_v100 (F := Ideal) x0 x1 x2 x7 = Host.dotGeneral (φ₁ := .f32) (φ₂ := .f32) dot_S100000x128_S128x128_S100000x128_1_0_0_1_n_n none
    (hidden (val_main_v91 (F := Ideal) x0 x1 x2 x7) (val_main_v77 (F := Ideal) x2)) (val_main_v97 (F := Ideal) x1) := rfl

theorem ref_agg3 : val_main_v113 (F := Ideal) x0 x1 x2 x7 = aggOf (val_main_v100 (F := Ideal) x0 x1 x2 x7) (val_main_v3 (F := Ideal) x7) (val_main_v6 (F := Ideal) x7) (val_main_v29 (F := Ideal) x7) := rfl

theorem ref_out : val_main_v116 (F := Ideal) x0 x1 x2 x7 = addf (val_main_v113 (F := Ideal) x0 x1 x2 x7) (biasRows (val_main_v99 (F := Ideal) x2)) := rfl

theorem ref_pool : val_main_v128 (F := Ideal) x0 x1 x2 x7 x8 = poolOf (val_main_v116 (F := Ideal) x0 x1 x2 x7) x8 := rfl

theorem ref_head : val_main_v137 (F := Ideal) x0 x1 x2 x3 x4 x5 x6 x7 x8 = head (val_main_v128 (F := Ideal) x0 x1 x2 x7 x8) x3 x4 x5 x6 := rfl

end Ref

end Cert.Gcn

end
-- ==== Proof.Stretches.lean ====
/-
  What each stretch of host operations between the grid regions leaves in the buffers later segments read, as a function
  of the buffer contents `U` the stretch starts from (any contents: nothing here depends on what they are).

  Before the first region: the edge lists `row`, `col` (the given edges, then a self-loop per node), the degree mask and
  reciprocal square root, `dinv`, the edge weights, and the first weight matrix.  Between regions: one round of message
  passing on the region's output, and the next layer's bias row and weight matrix sliced from the stacked parameters.
  After the fifth region: mean pooling by graph.
-/
import proofs.«170649_j40037685134216_1_alg».proof.Proof.Gen.KernelIdeal.Launch
import proofs.«170649_j40037685134216_1_alg».proof.Proof.Glue
import Idealize.ShloMosaic.Lib.StableHlo.Run

set_option maxRecDepth 16384

noncomputable section

namespace Cert.KernelIdeal.Stretch

open Cert.KernelIdeal Cert.KernelIdeal.Gen Idealize.ShloMosaic Idealize.ShloMosaic.TcCoe Idealize.SL.Sem Idealize.ShloMosaic.StableHlo
open Cert.Gcn

variable (U : Valuation τ sig (Elt Ideal))

/-! ## Before the first region -/

set_option maxHeartbeats 1000000 in
/-- The source list: the given sources, then every node once. -/
theorem s0_row : after (hostOps0 (F := Ideal)) U (Proc.devRef .tc main_v3) = Cert.ReferenceIdeal.ReadP.val_main_v3 (F := Ideal) (U (Proc.devRef .tc main_arg7)) := by
  dsimp only [hostOps0]
  after_results_simp <;> rfl

set_option maxHeartbeats 1000000 in
/-- The target list: the given targets, then every node once. -/
theorem s0_col : after (hostOps0 (F := Ideal)) U (Proc.devRef .tc main_v6) = Cert.ReferenceIdeal.ReadP.val_main_v6 (F := Ideal) (U (Proc.devRef .tc main_arg7)) := by
  dsimp only [hostOps0]
  after_results_simp <;> rfl

set_option maxHeartbeats 1000000 in
/-- Where a node's degree is positive. -/
theorem s0_mask : after (hostOps0 (F := Ideal)) U (Proc.devRef .tc main_v12) = Cert.ReferenceIdeal.ReadP.val_main_v12 (F := Ideal) (U (Proc.devRef .tc main_arg7)) := by
  dsimp only [hostOps0]
  after_results_simp <;> rfl

set_option maxHeartbeats 1000000 in
/-- The reciprocal square root of the degrees. -/
theorem s0_rsqrt : after (hostOps0 (F := Ideal)) U (Proc.devRef .tc main_v13) = Cert.ReferenceIdeal.ReadP.val_main_v13 (F := Ideal) (U (Proc.devRef .tc main_arg7)) := by
  dsimp only [hostOps0]
  after_results_simp <;> rfl

set_option maxHeartbeats 1000000 in
/-- The zero that stands where a degree is not positive. -/
theorem s0_zero : after (hostOps0 (F := Ideal)) U (Proc.devRef .tc main_cst_2) = Cert.ReferenceIdeal.ReadP.val_main_cst_2 (F := Ideal) := by
  dsimp only [hostOps0]
  after_results_simp <;> rfl

set_option maxHeartbeats 1000000 in
/-- `dinv`: the reciprocal square root where the degree is positive, zero elsewhere. -/
theorem s01_dinv : after (hostOps0_1 (F := Ideal)) U (Proc.devRef .tc main_v14) = select (U (Proc.devRef .tc main_v12)) (U (Proc.devRef .tc main_v13)) (broadcastInDim S100000 ![] bcast_S_S100000 (id (U (Proc.devRef .tc main_cst_2)))) := by
  dsimp only [hostOps0_1]
  after_results_simp <;> rfl

set_option maxHeartbeats 1000000 in
/-- The edge weights. -/
theorem s02_norm : after (hostOps0_2 (F := Ideal)) U (Proc.devRef .tc main_v29) = normOf (U (Proc.devRef .tc main_v3)) (U (Proc.devRef .tc main_v6)) (U (Proc.devRef .tc main_v14)) := by
  dsimp only [hostOps0_2]
  after_results_simp <;> rfl

set_option maxHeartbeats 1000000 in
/-- The first weight matrix. -/
theorem s02_w : after (hostOps0_2 (F := Ideal)) U (Proc.devRef .tc main_v31) = Cert.ReferenceIdeal.ReadP.val_main_v31 (F := Ideal) (U (Proc.devRef .tc main_arg1)) := by
  dsimp only [hostOps0_2]
  after_results_simp <;> rfl

/-! ## Between the regions -/

set_option maxHeartbeats 1000000 in
/-- The stretch's message passing: the aggregate of `main_v32` over the edge lists and weights it finds. -/
theorem s1_agg : after (hostOps1 (F := Ideal)) U (Proc.devRef .tc main_v45) = aggOf (U (Proc.devRef .tc main_v32)) (U (Proc.devRef .tc main_v3)) (U (Proc.devRef .tc main_v6)) (U (Proc.devRef .tc main_v29)) := by
  dsimp only [hostOps1]
  after_results_simp <;> rfl

set_option maxHeartbeats 1000000 in
/-- The first bias row. -/
theorem s1_b : after (hostOps1 (F := Ideal)) U (Proc.devRef .tc main_v47) = Cert.ReferenceIdeal.ReadP.val_main_v33 (F := Ideal) (U (Proc.devRef .tc main_arg2)) := by
  dsimp only [hostOps1]
  after_results_simp <;> rfl

set_option maxHeartbeats 1000000 in
/-- The second weight matrix. -/
theorem s1_w : after (hostOps1 (F := Ideal)) U (Proc.devRef .tc main_v49) = Cert.ReferenceIdeal.ReadP.val_main_v53 (F := Ideal) (U (Proc.devRef .tc main_arg1)) := by
  dsimp only [hostOps1]
  after_results_simp <;> rfl

set_option maxHeartbeats 1000000 in
/-- The stretch's message passing: the aggregate of `main_v50` over the edge lists and weights it finds. -/
theorem s2_agg : after (hostOps2 (F := Ideal)) U (Proc.devRef .tc main_v63) = aggOf (U (Proc.devRef .tc main_v50)) (U (Proc.devRef .tc main_v3)) (U (Proc.devRef .tc main_v6)) (U (Proc.devRef .tc main_v29)) := by
  dsimp only [hostOps2]
  after_results_simp <;> rfl

set_option maxHeartbeats 1000000 in
/-- The second bias row. -/
theorem s2_b : after (hostOps2 (F := Ideal)) U (Proc.devRef .tc main_v65) = Cert.ReferenceIdeal.ReadP.val_main_v55 (F := Ideal) (U (Proc.devRef .tc main_arg2)) := by
  dsimp only [hostOps2]
  after_results_simp <;> rfl

set_option maxHeartbeats 1000000 in
/-- The third weight matrix. -/
theorem s2_w : after (hostOps2 (F := Ideal)) U (Proc.devRef .tc main_v67) = Cert.ReferenceIdeal.ReadP.val_main_v75 (F := Ideal) (U (Proc.devRef .tc main_arg1)) := by
  dsimp only [hostOps2]
  after_results_simp <;> rfl

set_option maxHeartbeats 1000000 in
/-- The stretch's message passing: the aggregate of `main_v68` over the edge lists and weights it finds. -/
theorem s3_agg : after (hostOps3 (F := Ideal)) U (Proc.devRef .tc main_v81) = aggOf (U (Proc.devRef .tc main_v68)) (U (Proc.devRef .tc main_v3)) (U (Proc.devRef .tc main_v6)) (U (Proc.devRef .tc main_v29)) := by
  dsimp only [hostOps3]
  after_results_simp <;> rfl

set_option maxHeartbeats 1000000 in
/-- The third bias row. -/
theorem s3_b : after (hostOps3 (F := Ideal)) U (Proc.devRef .tc main_v83) = Cert.ReferenceIdeal.ReadP.val_main_v77 (F := Ideal) (U (Proc.devRef .tc main_arg2)) := by
  dsimp only [hostOps3]
  after_results_simp <;> rfl

set_option maxHeartbeats 1000000 in
/-- The fourth weight matrix. -/
theorem s3_w : after (hostOps3 (F := Ideal)) U (Proc.devRef .tc main_v85) = Cert.ReferenceIdeal.ReadP.val_main_v97 (F := Ideal) (U (Proc.devRef .tc main_arg1)) := by
  dsimp only [hostOps3]
  after_results_simp <;> rfl

set_option maxHeartbeats 1000000 in
/-- The stretch's message passing: the aggregate of `main_v86` over the edge lists and weights it finds. -/
theorem s4_agg : after (hostOps4 (F := Ideal)) U (Proc.devRef .tc main_v99) = aggOf (U (Proc.devRef .tc main_v86)) (U (Proc.devRef .tc main_v3)) (U (Proc.devRef .tc main_v6)) (U (Proc.devRef .tc main_v29)) := by
  dsimp only [hostOps4]
  after_results_simp <;> rfl

set_option maxHeartbeats 1000000 in
/-- The fourth bias row. -/
theorem s4_b : after (hostOps4 (F := Ideal)) U (Proc.devRef .tc main_v101) = Cert.ReferenceIdeal.ReadP.val_main_v99 (F := Ideal) (U (Proc.devRef .tc main_arg2)) := by
  dsimp only [hostOps4]
  after_results_simp <;> rfl

/-! ## After the fifth region -/

set_option maxHeartbeats 1000000 in
/-- Mean pooling of the node rows by graph. -/
theorem s5_pool : after (hostOps5 (F := Ideal)) U (Proc.devRef .tc main_v114) = poolOf (U (Proc.devRef .tc main_v102)) (U (Proc.devRef .tc main_arg8)) := by
  dsimp only [hostOps5]
  after_results_simp <;> rfl

end Cert.KernelIdeal.Stretch

end
-- ==== Proof.Region0.lean ====
/-
  The first grid region (the first layer's linear map), as one function of the arrays it finds.
  Twenty grid points; point `t` reads rows `t·5000 …` of the node features and the whole weight matrix, and writes rows
  `t·5000 …` of the output.  The blocks tile the output, so when the region ends the output array is the whole product
  `X · W` — the host's `dot_general` of the two arrays the region found.
-/
import proofs.«170649_j40037685134216_1_alg».proof.Proof.Gen.KernelIdeal.Frame
import proofs.«170649_j40037685134216_1_alg».proof.Proof.Payloads
import Idealize.ShloMosaic.Lib.Pipeline.Value

set_option maxRecDepth 16384

noncomputable section

namespace Cert.KernelIdeal.Layer0

open Cert.KernelIdeal Cert.KernelIdeal.Gen Idealize.ShloMosaic Idealize.ShloMosaic.TcCoe Idealize.SL.Sem
open Idealize.ShloMosaic.ValueIdx Cert.KernelIdeal.Body
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 20 grid points: point `t` takes row-block `t` of the tiled arrays and the
    one block of every whole operand. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The whole product of the node features and the first weight matrix, as the region finds them. -/
abbrev G (c : Dev nD) : FVec Ideal S100000x128 .f32 :=
  Host.dotGeneral (F := Ideal) (φ₁ := .f32) (φ₂ := .f32) Cert.ReferenceIdeal.dot_S100000x128_S128x128_S100000x128_1_0_0_1_n_n none (V c main_arg0) (V c main_v31)

/-- What point `t` writes back is rows `t·5000 … t·5000 + 4999` of `G`. -/
theorem flushed_eq (c : Dev nD) (t : Fin cfg0.N) :
    (dat0 V c).flushed 2 t = ((cfg0.win 2).blk t).view.read (Elt Ideal) (G V c) := by
  show (cfg0.win 2).cut (grid0.coords t) ((dat0 V c).after 2 t) = _
  rw [after0_2]
  unfold out0_2
  rw [View.canon_unit_zero hz2]
  simp only [View.ld_unit_zero (S := S5000x128) hz2, View.ld_unit_zero (S := S128x128) hz2]
  obtain ⟨e0, e1, e2, e3, e4, e5⟩ := idx_facts t
  have ht : t.val < 20 := lt_of_lt_of_eq t.isLt N_0
  funext j
  obtain ⟨p, q, rfl⟩ : ∃ (p : Fin 5000) (q : Fin 128), j = ix2 p q := ⟨j 0, j 1, eq_ix2 j⟩
  have hrow : t.val * 5000 + p.val < 100000 := by have := p.isLt; omega
  have hemb : ((cfg0.win 2).blk t).view.emb (ix2 p q) = ix2 ⟨t.val * 5000 + p.val, hrow⟩ q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  show k0_pay1 (iblk0 V c 0 t) (iblk0 V c 1 t) (ix2 p q) = G V c (((cfg0.win 2).blk t).view.emb (ix2 p q))
  rw [hemb]
  exact linear_point _ _ (iblk0 V c 0 t) (iblk0 V c 1 t) t.val p q hrow
    (fun k => by
      show V c main_arg0 (((cfg0.win 0).blk t).view.emb (ix2 p k)) = V c main_arg0 (ix2 ⟨t.val * 5000 + p.val, hrow⟩ k)
      have h : ((cfg0.win 0).blk t).view.emb (ix2 p k) = ix2 ⟨t.val * 5000 + p.val, hrow⟩ k := by
        funext a; apply Fin.ext
        match a with
        | ⟨0, _⟩ => show win0_0.index t (0 : Fin 2) * 5000 + 1 * p.val = t.val * 5000 + p.val; omega
        | ⟨1, _⟩ => show win0_0.index t (1 : Fin 2) * 128 + 1 * k.val = k.val; omega
      rw [h])
    (fun k => by
      show V c main_v31 (((cfg0.win 1).blk t).view.emb (ix2 k q)) = V c main_v31 (ix2 k q)
      have h : ((cfg0.win 1).blk t).view.emb (ix2 k q) = ix2 k q := by
        funext a; apply Fin.ext
        match a with
        | ⟨0, _⟩ => show win0_1.index t (0 : Fin 2) * 128 + 1 * k.val = k.val; omega
        | ⟨1, _⟩ => show win0_1.index t (1 : Fin 2) * 128 + 1 * q.val = q.val; omega
      rw [h])

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Every row of the array lies in the block of point `row / 5000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : (i 0).val / 5000 < cfg0.N := lt_of_lt_of_eq (by omega : (i 0).val / 5000 < 20) N_0.symm
  obtain ⟨e0, e1, e2, e3, e4, e5⟩ := idx_facts ⟨(i 0).val / 5000, hN⟩
  refine ⟨⟨(i 0).val / 5000, hN⟩, flush0_2 _, ?_⟩
  rw [mem_blk]
  intro a
  match a with
  | ⟨0, _⟩ =>
    show win0_2.index ⟨(i 0).val / 5000, hN⟩ (0 : Fin 2) * 5000 ≤ (i 0).val ∧ (i 0).val < win0_2.index ⟨(i 0).val / 5000, hN⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, hN⟩ (1 : Fin 2) * 128 ≤ (i 1).val ∧ (i 1).val < win0_2.index ⟨(i 0).val / 5000, hN⟩ (1 : Fin 2) * 128 + 128
    rw [e5]
    omega

/-- The output array when the region ends: `G`, whole. -/
theorem final (c : Dev nD) : (dat0 V c).arrAt 2 cfg0.N = G V c :=
  (dat0 V c).arrAt_eq_of_cover 2 (G V c) (fun t _ => flushed_eq V c t) cover

end Cert.KernelIdeal.Layer0

end
-- ==== Proof.Region1.lean ====
/-
  Grid region 1 (hidden layer 1: bias, clamp at zero, linear map), as one function of the arrays it finds.
  Twenty grid points; point `t` reads rows `t·5000 …` of the aggregated features, the whole bias vector and the whole
  weight matrix, and writes rows `t·5000 …` of the output.  When the region ends the output array is the whole product
  `max (A + bias rows, 0) · W`.
-/
import proofs.«170649_j40037685134216_1_alg».proof.Proof.Gen.KernelIdeal.Frame
import proofs.«170649_j40037685134216_1_alg».proof.Proof.Payloads
import Idealize.ShloMosaic.Lib.Pipeline.Value

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.ValueIdx Cert.KernelIdeal.Body
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 20 grid points: point `t` takes row-block `t` of the tiled arrays and the
    one block of every whole operand. -/
theorem idx_facts : ∀ t : Fin cfg1.N, win1_0.index t (0 : Fin 2) = t.val
    ∧ win1_0.index t (1 : Fin 2) = 0
    ∧ win1_1.index t (0 : Fin 1) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- The clamped, biased aggregate times the layer's weights, on the whole node array. -/
abbrev G (c : Dev nD) : FVec Ideal S100000x128 .f32 :=
  Host.dotGeneral (F := Ideal) (φ₁ := .f32) (φ₂ := .f32) Cert.ReferenceIdeal.dot_S100000x128_S128x128_S100000x128_1_0_0_1_n_n none (hidden (V c main_v45) (V c main_v47)) (V c main_v49)

/-- What point `t` writes back is rows `t·5000 … t·5000 + 4999` of `G`. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz2]
  simp only [View.ld_unit_zero (S := S5000x128) hz2, View.ld_unit_zero (S := S128) hz1, View.ld_unit_zero (S := S128x128) hz2]
  obtain ⟨e0, e1, e2, e3, e4, e5, e6⟩ := idx_facts t
  have ht : t.val < 20 := lt_of_lt_of_eq t.isLt N_1
  funext j
  obtain ⟨p, q, rfl⟩ : ∃ (p : Fin 5000) (q : Fin 128), j = ix2 p q := ⟨j 0, j 1, eq_ix2 j⟩
  have hrow : t.val * 5000 + p.val < 100000 := by have := p.isLt; omega
  have hemb : ((cfg1.win 3).blk t).view.emb (ix2 p q) = ix2 ⟨t.val * 5000 + p.val, hrow⟩ q := by
    funext a; apply Fin.ext
    match a with
    | ⟨0, _⟩ => show win1_3.index t (0 : Fin 2) * 5000 + 1 * p.val = t.val * 5000 + p.val; omega
    | ⟨1, _⟩ => show win1_3.index t (1 : Fin 2) * 128 + 1 * q.val = q.val; omega
  show k1_pay1 (iblk1 V c 0 t) (iblk1 V c 1 t) (iblk1 V c 2 t) (ix2 p q) = G V c (((cfg1.win 3).blk t).view.emb (ix2 p q))
  rw [hemb]
  exact fused1_point _ _ _ (iblk1 V c 0 t) (iblk1 V c 1 t) (iblk1 V c 2 t) t.val p q hrow
    (fun k => by
      show V c main_v45 (((cfg1.win 0).blk t).view.emb (ix2 p k)) = V c main_v45 (ix2 ⟨t.val * 5000 + p.val, hrow⟩ k)
      have h : ((cfg1.win 0).blk t).view.emb (ix2 p k) = ix2 ⟨t.val * 5000 + p.val, hrow⟩ k := by
        funext a; apply Fin.ext
        match a with
        | ⟨0, _⟩ => show win1_0.index t (0 : Fin 2) * 5000 + 1 * p.val = t.val * 5000 + p.val; omega
        | ⟨1, _⟩ => show win1_0.index t (1 : Fin 2) * 128 + 1 * k.val = k.val; omega
      rw [h])
    (fun k => by
      show V c main_v47 (((cfg1.win 1).blk t).view.emb (ix1 k)) = V c main_v47 (ix1 k)
      have h : ((cfg1.win 1).blk t).view.emb (ix1 k) = ix1 k := by
        funext a; apply Fin.ext
        match a with
        | ⟨0, _⟩ => show win1_1.index t (0 : Fin 1) * 128 + 1 * k.val = k.val; omega
      rw [h])
    (fun k => by
      show V c main_v49 (((cfg1.win 2).blk t).view.emb (ix2 k q)) = V c main_v49 (ix2 k q)
      have h : ((cfg1.win 2).blk t).view.emb (ix2 k q) = ix2 k q := by
        funext a; apply Fin.ext
        match a with
        | ⟨0, _⟩ => show win1_2.index t (0 : Fin 2) * 128 + 1 * k.val = k.val; omega
        | ⟨1, _⟩ => show win1_2.index t (1 : Fin 2) * 128 + 1 * q.val = q.val; omega
      rw [h])

/-- An index of the array is in point `t`'s block iff each coordinate is in the block's range on its axis. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v50).slice (win1_3.rect t)).set ↔ _
  rw [View.set_slice_whole, Rect.mem_set_unit]
  exact Iff.rfl

/-- Every row of the array lies in the block of point `row / 5000`. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : (i 0).val / 5000 < cfg1.N := lt_of_lt_of_eq (by omega : (i 0).val / 5000 < 20) N_1.symm
  obtain ⟨e0, e1, e2, e3, e4, e5, e6⟩ := idx_facts ⟨(i 0).val / 5000, hN⟩
  refine ⟨⟨(i 0).val / 5000, hN⟩, flush1_3 _, ?_⟩
  rw [mem_blk]
  intro a
  match a with
  | ⟨0, _⟩ =>
    show win1_3.index ⟨(i 0).val / 5000, hN⟩ (0 : Fin 2) * 5000 ≤ (i 0).val ∧ (i 0).val < win1_3.index ⟨(i 0).val / 5000, hN⟩ (0 : Fin 2) * 5000 + 5000
    rw [e5]
    show (i 0).val / 5000 * 5000 ≤ (i 0).val ∧ (i 0).val < (i 0).val / 5000 * 5000 + 5000
    omega
  | ⟨1, _⟩ =>
    show win1_3.index ⟨(i 0).val / 5000, hN⟩ (1 : Fin 2) * 128 ≤ (i 1).val ∧ (i 1).val < win1_3.index ⟨(i 0).val / 5000, hN⟩ (1 : Fin 2) * 128 + 128
    rw [e6]
    omega

/-- The output array when the region ends: `G`, whole. -/
theorem final (c : Dev nD) : (dat1 V c).arrAt 3 cfg1.N = G V c :=
  (dat1 V c).arrAt_eq_of_cover 3 (G V c) (fun t _ => flushed_eq V c t) cover

end Cert.KernelIdeal.Layer1

end
-- ==== Proof.Region2.lean ====
/-
  Grid region 2 (hidden layer 2: bias, clamp at zero, linear map), as one function of the arrays it finds.
  Twenty grid points; point `t` reads rows `t·5000 …` of the aggregated features, the whole bias vector and the whole
  weight matrix, and writes rows `t·5000 …` of the output.  When the region ends the output array is the whole product
  `max (A + bias rows, 0) · W`.
-/
import proofs.«170649_j40037685134216_1_alg».proof.Proof.Gen.KernelIdeal.Frame
import proofs.«170649_j40037685134216_1_alg».proof.Proof.Payloads
import Idealize.ShloMosaic.Lib.Pipeline.Value

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.ValueIdx Cert.KernelIdeal.Body
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 20 grid points: point `t` takes row-block `t` of the tiled arrays and the
    one block of every whole operand. -/
theorem idx_facts : ∀ t : Fin cfg2.N, win2_0.index t (0 : Fin 2) = t.val
    ∧ win2_0.index t (1 : Fin 2) = 0
    ∧ win2_1.index t (0 : Fin 1) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

/-- The clamped, biased aggregate times the layer's weights, on the whole node array. -/
abbrev G (c : Dev nD) : FVec Ideal S100000x128 .f32 :=
  Host.dotGeneral (F := Ideal) (φ₁ := .f32) (φ₂ := .f32) Cert.ReferenceIdeal.dot_S100000x128_S128x128_S100000x128_1_0_0_1_n_n none (hidden (V c main_v63) (V c main_v65)) (V c main_v67)

/-- What point `t` writes back is rows `t·5000 … t·5000 + 4999` of `G`. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz2]
  simp only [View.ld_unit_zero (S := S5000x128) hz2, View.ld_unit_zero (S := S128) hz1, View.ld_unit_zero (S := S128x128) hz2]
  obtain ⟨e0, e1, e2, e3, e4, e5, e6⟩ := idx_facts t
  have ht : t.val < 20 := lt_of_lt_of_eq t.isLt N_2
  funext j
  obtain ⟨p, q, rfl⟩ : ∃ (p : Fin 5000) (q : Fin 128), j = ix2 p q := ⟨j 0, j 1, eq_ix2 j⟩
  have hrow : t.val * 5000 + p.val < 100000 := by have := p.isLt; omega
  have hemb : ((cfg2.win 3).blk t).view.emb (ix2 p q) = ix2 ⟨t.val * 5000 + p.val, hrow⟩ q := by
    funext a; apply Fin.ext
    match a with
    | ⟨0, _⟩ => show win2_3.index t (0 : Fin 2) * 5000 + 1 * p.val = t.val * 5000 + p.val; omega
    | ⟨1, _⟩ => show win2_3.index t (1 : Fin 2) * 128 + 1 * q.val = q.val; omega
  show k2_pay1 (iblk2 V c 0 t) (iblk2 V c 1 t) (iblk2 V c 2 t) (ix2 p q) = G V c (((cfg2.win 3).blk t).view.emb (ix2 p q))
  rw [hemb]
  exact fused2_point _ _ _ (iblk2 V c 0 t) (iblk2 V c 1 t) (iblk2 V c 2 t) t.val p q hrow
    (fun k => by
      show V c main_v63 (((cfg2.win 0).blk t).view.emb (ix2 p k)) = V c main_v63 (ix2 ⟨t.val * 5000 + p.val, hrow⟩ k)
      have h : ((cfg2.win 0).blk t).view.emb (ix2 p k) = ix2 ⟨t.val * 5000 + p.val, hrow⟩ k := by
        funext a; apply Fin.ext
        match a with
        | ⟨0, _⟩ => show win2_0.index t (0 : Fin 2) * 5000 + 1 * p.val = t.val * 5000 + p.val; omega
        | ⟨1, _⟩ => show win2_0.index t (1 : Fin 2) * 128 + 1 * k.val = k.val; omega
      rw [h])
    (fun k => by
      show V c main_v65 (((cfg2.win 1).blk t).view.emb (ix1 k)) = V c main_v65 (ix1 k)
      have h : ((cfg2.win 1).blk t).view.emb (ix1 k) = ix1 k := by
        funext a; apply Fin.ext
        match a with
        | ⟨0, _⟩ => show win2_1.index t (0 : Fin 1) * 128 + 1 * k.val = k.val; omega
      rw [h])
    (fun k => by
      show V c main_v67 (((cfg2.win 2).blk t).view.emb (ix2 k q)) = V c main_v67 (ix2 k q)
      have h : ((cfg2.win 2).blk t).view.emb (ix2 k q) = ix2 k q := by
        funext a; apply Fin.ext
        match a with
        | ⟨0, _⟩ => show win2_2.index t (0 : Fin 2) * 128 + 1 * k.val = k.val; omega
        | ⟨1, _⟩ => show win2_2.index t (1 : Fin 2) * 128 + 1 * q.val = q.val; omega
      rw [h])

/-- An index of the array is in point `t`'s block iff each coordinate is in the block's range on its axis. -/
theorem mem_blk (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v68).slice (win2_3.rect t)).set ↔ _
  rw [View.set_slice_whole, Rect.mem_set_unit]
  exact Iff.rfl

/-- Every row of the array lies in the block of point `row / 5000`. -/
theorem cover (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have hN : (i 0).val / 5000 < cfg2.N := lt_of_lt_of_eq (by omega : (i 0).val / 5000 < 20) N_2.symm
  obtain ⟨e0, e1, e2, e3, e4, e5, e6⟩ := idx_facts ⟨(i 0).val / 5000, hN⟩
  refine ⟨⟨(i 0).val / 5000, hN⟩, flush2_3 _, ?_⟩
  rw [mem_blk]
  intro a
  match a with
  | ⟨0, _⟩ =>
    show win2_3.index ⟨(i 0).val / 5000, hN⟩ (0 : Fin 2) * 5000 ≤ (i 0).val ∧ (i 0).val < win2_3.index ⟨(i 0).val / 5000, hN⟩ (0 : Fin 2) * 5000 + 5000
    rw [e5]
    show (i 0).val / 5000 * 5000 ≤ (i 0).val ∧ (i 0).val < (i 0).val / 5000 * 5000 + 5000
    omega
  | ⟨1, _⟩ =>
    show win2_3.index ⟨(i 0).val / 5000, hN⟩ (1 : Fin 2) * 128 ≤ (i 1).val ∧ (i 1).val < win2_3.index ⟨(i 0).val / 5000, hN⟩ (1 : Fin 2) * 128 + 128
    rw [e6]
    omega

/-- The output array when the region ends: `G`, whole. -/
theorem final (c : Dev nD) : (dat2 V c).arrAt 3 cfg2.N = G V c :=
  (dat2 V c).arrAt_eq_of_cover 3 (G V c) (fun t _ => flushed_eq V c t) cover

end Cert.KernelIdeal.Layer2

end
-- ==== Proof.Region3.lean ====
/-
  Grid region 3 (hidden layer 3: bias, clamp at zero, linear map), as one function of the arrays it finds.
  Twenty grid points; point `t` reads rows `t·5000 …` of the aggregated features, the whole bias vector and the whole
  weight matrix, and writes rows `t·5000 …` of the output.  When the region ends the output array is the whole product
  `max (A + bias rows, 0) · W`.
-/
import proofs.«170649_j40037685134216_1_alg».proof.Proof.Gen.KernelIdeal.Frame
import proofs.«170649_j40037685134216_1_alg».proof.Proof.Payloads
import Idealize.ShloMosaic.Lib.Pipeline.Value

set_option maxRecDepth 16384

noncomputable section

namespace Cert.KernelIdeal.Layer3

open Cert.KernelIdeal Cert.KernelIdeal.Gen Idealize.ShloMosaic Idealize.ShloMosaic.TcCoe Idealize.SL.Sem
open Idealize.ShloMosaic.ValueIdx Cert.KernelIdeal.Body
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 20 grid points: point `t` takes row-block `t` of the tiled arrays and the
    one block of every whole operand. -/
theorem idx_facts : ∀ t : Fin cfg3.N, win3_0.index t (0 : Fin 2) = t.val
    ∧ win3_0.index t (1 : Fin 2) = 0
    ∧ win3_1.index t (0 : Fin 1) = 0
    ∧ win3_2.index t (0 : Fin 2) = 0
    ∧ win3_2.index t (1 : Fin 2) = 0
    ∧ win3_3.index t (0 : Fin 2) = t.val
    ∧ win3_3.index t (1 : Fin 2) = 0 :=
  (by decide +kernel : ∀ t : Fin grid3.N, _)

/-- The clamped, biased aggregate times the layer's weights, on the whole node array. -/
abbrev G (c : Dev nD) : FVec Ideal S100000x128 .f32 :=
  Host.dotGeneral (F := Ideal) (φ₁ := .f32) (φ₂ := .f32) Cert.ReferenceIdeal.dot_S100000x128_S128x128_S100000x128_1_0_0_1_n_n none (hidden (V c main_v81) (V c main_v83)) (V c main_v85)

/-- What point `t` writes back is rows `t·5000 … t·5000 + 4999` of `G`. -/
theorem flushed_eq (c : Dev nD) (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero hz2]
  simp only [View.ld_unit_zero (S := S5000x128) hz2, View.ld_unit_zero (S := S128) hz1, View.ld_unit_zero (S := S128x128) hz2]
  obtain ⟨e0, e1, e2, e3, e4, e5, e6⟩ := idx_facts t
  have ht : t.val < 20 := lt_of_lt_of_eq t.isLt N_3
  funext j
  obtain ⟨p, q, rfl⟩ : ∃ (p : Fin 5000) (q : Fin 128), j = ix2 p q := ⟨j 0, j 1, eq_ix2 j⟩
  have hrow : t.val * 5000 + p.val < 100000 := by have := p.isLt; omega
  have hemb : ((cfg3.win 3).blk t).view.emb (ix2 p q) = ix2 ⟨t.val * 5000 + p.val, hrow⟩ q := by
    funext a; apply Fin.ext
    match a with
    | ⟨0, _⟩ => show win3_3.index t (0 : Fin 2) * 5000 + 1 * p.val = t.val * 5000 + p.val; omega
    | ⟨1, _⟩ => show win3_3.index t (1 : Fin 2) * 128 + 1 * q.val = q.val; omega
  show k3_pay1 (iblk3 V c 0 t) (iblk3 V c 1 t) (iblk3 V c 2 t) (ix2 p q) = G V c (((cfg3.win 3).blk t).view.emb (ix2 p q))
  rw [hemb]
  exact fused3_point _ _ _ (iblk3 V c 0 t) (iblk3 V c 1 t) (iblk3 V c 2 t) t.val p q hrow
    (fun k => by
      show V c main_v81 (((cfg3.win 0).blk t).view.emb (ix2 p k)) = V c main_v81 (ix2 ⟨t.val * 5000 + p.val, hrow⟩ k)
      have h : ((cfg3.win 0).blk t).view.emb (ix2 p k) = ix2 ⟨t.val * 5000 + p.val, hrow⟩ k := by
        funext a; apply Fin.ext
        match a with
        | ⟨0, _⟩ => show win3_0.index t (0 : Fin 2) * 5000 + 1 * p.val = t.val * 5000 + p.val; omega
        | ⟨1, _⟩ => show win3_0.index t (1 : Fin 2) * 128 + 1 * k.val = k.val; omega
      rw [h])
    (fun k => by
      show V c main_v83 (((cfg3.win 1).blk t).view.emb (ix1 k)) = V c main_v83 (ix1 k)
      have h : ((cfg3.win 1).blk t).view.emb (ix1 k) = ix1 k := by
        funext a; apply Fin.ext
        match a with
        | ⟨0, _⟩ => show win3_1.index t (0 : Fin 1) * 128 + 1 * k.val = k.val; omega
      rw [h])
    (fun k => by
      show V c main_v85 (((cfg3.win 2).blk t).view.emb (ix2 k q)) = V c main_v85 (ix2 k q)
      have h : ((cfg3.win 2).blk t).view.emb (ix2 k q) = ix2 k q := by
        funext a; apply Fin.ext
        match a with
        | ⟨0, _⟩ => show win3_2.index t (0 : Fin 2) * 128 + 1 * k.val = k.val; omega
        | ⟨1, _⟩ => show win3_2.index t (1 : Fin 2) * 128 + 1 * q.val = q.val; omega
      rw [h])

/-- An index of the array is in point `t`'s block iff each coordinate is in the block's range on its axis. -/
theorem mem_blk (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v86).slice (win3_3.rect t)).set ↔ _
  rw [View.set_slice_whole, Rect.mem_set_unit]
  exact Iff.rfl

/-- Every row of the array lies in the block of point `row / 5000`. -/
theorem cover (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  have hN : (i 0).val / 5000 < cfg3.N := lt_of_lt_of_eq (by omega : (i 0).val / 5000 < 20) N_3.symm
  obtain ⟨e0, e1, e2, e3, e4, e5, e6⟩ := idx_facts ⟨(i 0).val / 5000, hN⟩
  refine ⟨⟨(i 0).val / 5000, hN⟩, flush3_3 _, ?_⟩
  rw [mem_blk]
  intro a
  match a with
  | ⟨0, _⟩ =>
    show win3_3.index ⟨(i 0).val / 5000, hN⟩ (0 : Fin 2) * 5000 ≤ (i 0).val ∧ (i 0).val < win3_3.index ⟨(i 0).val / 5000, hN⟩ (0 : Fin 2) * 5000 + 5000
    rw [e5]
    show (i 0).val / 5000 * 5000 ≤ (i 0).val ∧ (i 0).val < (i 0).val / 5000 * 5000 + 5000
    omega
  | ⟨1, _⟩ =>
    show win3_3.index ⟨(i 0).val / 5000, hN⟩ (1 : Fin 2) * 128 ≤ (i 1).val ∧ (i 1).val < win3_3.index ⟨(i 0).val / 5000, hN⟩ (1 : Fin 2) * 128 + 128
    rw [e6]
    omega

/-- The output array when the region ends: `G`, whole. -/
theorem final (c : Dev nD) : (dat3 V c).arrAt 3 cfg3.N = G V c :=
  (dat3 V c).arrAt_eq_of_cover 3 (G V c) (fun t _ => flushed_eq V c t) cover

end Cert.KernelIdeal.Layer3

end
-- ==== Proof.Region4.lean ====
/-
  Grid region 4 (the last layer's bias), as one function of the arrays it finds.
  Twenty grid points; point `t` adds the bias row to rows `t·5000 …` of the aggregated features.  When the region ends the
  output array is the aggregate plus the bias rows, whole.
-/
import proofs.«170649_j40037685134216_1_alg».proof.Proof.Gen.KernelIdeal.Frame
import proofs.«170649_j40037685134216_1_alg».proof.Proof.Payloads
import Idealize.ShloMosaic.Lib.Pipeline.Value

set_option maxRecDepth 16384

noncomputable section

namespace Cert.KernelIdeal.Layer4

open Cert.KernelIdeal Cert.KernelIdeal.Gen Idealize.ShloMosaic Idealize.ShloMosaic.TcCoe Idealize.SL.Sem
open Idealize.ShloMosaic.ValueIdx Cert.KernelIdeal.Body
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 20 grid points: point `t` takes row-block `t` of the tiled arrays and the
    one block of every whole operand. -/
theorem idx_facts : ∀ t : Fin cfg4.N, win4_0.index t (0 : Fin 2) = t.val
    ∧ win4_0.index t (1 : Fin 2) = 0
    ∧ win4_1.index t (0 : Fin 1) = 0
    ∧ win4_2.index t (0 : Fin 2) = t.val
    ∧ win4_2.index t (1 : Fin 2) = 0 :=
  (by decide +kernel : ∀ t : Fin grid4.N, _)

/-- The aggregate plus the last bias, on the whole node array. -/
abbrev G (c : Dev nD) : FVec Ideal S100000x128 .f32 :=
  addf (F := Ideal) (φ := .f32) (V c main_v99) (biasRows (V c main_v101))

/-- What point `t` writes back is rows `t·5000 … t·5000 + 4999` of `G`. -/
theorem flushed_eq (c : Dev nD) (t : Fin cfg4.N) :
    (dat4 V c).flushed 2 t = ((cfg4.win 2).blk t).view.read (Elt Ideal) (G V c) := by
  show (cfg4.win 2).cut (grid4.coords t) ((dat4 V c).after 2 t) = _
  rw [after4_2]
  unfold out4_2
  rw [View.canon_unit_zero hz2]
  simp only [View.ld_unit_zero (S := S5000x128) hz2, View.ld_unit_zero (S := S128) hz1]
  obtain ⟨e0, e1, e2, e3, e4⟩ := idx_facts t
  have ht : t.val < 20 := lt_of_lt_of_eq t.isLt N_4
  funext j
  obtain ⟨p, q, rfl⟩ : ∃ (p : Fin 5000) (q : Fin 128), j = ix2 p q := ⟨j 0, j 1, eq_ix2 j⟩
  have hrow : t.val * 5000 + p.val < 100000 := by have := p.isLt; omega
  have hemb : ((cfg4.win 2).blk t).view.emb (ix2 p q) = ix2 ⟨t.val * 5000 + p.val, hrow⟩ q := by
    funext a; apply Fin.ext
    match a with
    | ⟨0, _⟩ => show win4_2.index t (0 : Fin 2) * 5000 + 1 * p.val = t.val * 5000 + p.val; omega
    | ⟨1, _⟩ => show win4_2.index t (1 : Fin 2) * 128 + 1 * q.val = q.val; omega
  show k4_pay1 (iblk4 V c 0 t) (iblk4 V c 1 t) (ix2 p q) = G V c (((cfg4.win 2).blk t).view.emb (ix2 p q))
  rw [hemb]
  exact bias_point _ _ (iblk4 V c 0 t) (iblk4 V c 1 t) t.val p q hrow
    (by
      show V c main_v99 (((cfg4.win 0).blk t).view.emb (ix2 p q)) = V c main_v99 (ix2 ⟨t.val * 5000 + p.val, hrow⟩ q)
      have h : ((cfg4.win 0).blk t).view.emb (ix2 p q) = ix2 ⟨t.val * 5000 + p.val, hrow⟩ q := by
        funext a; apply Fin.ext
        match a with
        | ⟨0, _⟩ => show win4_0.index t (0 : Fin 2) * 5000 + 1 * p.val = t.val * 5000 + p.val; omega
        | ⟨1, _⟩ => show win4_0.index t (1 : Fin 2) * 128 + 1 * q.val = q.val; omega
      rw [h])
    (by
      show V c main_v101 (((cfg4.win 1).blk t).view.emb (ix1 q)) = V c main_v101 (ix1 q)
      have h : ((cfg4.win 1).blk t).view.emb (ix1 q) = ix1 q := by
        funext a; apply Fin.ext
        match a with
        | ⟨0, _⟩ => show win4_1.index t (0 : Fin 1) * 128 + 1 * q.val = q.val; omega
      rw [h])

/-- An index of the array is in point `t`'s block iff each coordinate is in the block's range on its axis. -/
theorem mem_blk (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v102).slice (win4_2.rect t)).set ↔ _
  rw [View.set_slice_whole, Rect.mem_set_unit]
  exact Iff.rfl

/-- Every row of the array lies in the block of point `row / 5000`. -/
theorem cover (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  have hN : (i 0).val / 5000 < cfg4.N := lt_of_lt_of_eq (by omega : (i 0).val / 5000 < 20) N_4.symm
  obtain ⟨e0, e1, e2, e3, e4⟩ := idx_facts ⟨(i 0).val / 5000, hN⟩
  refine ⟨⟨(i 0).val / 5000, hN⟩, flush4_2 _, ?_⟩
  rw [mem_blk]
  intro a
  match a with
  | ⟨0, _⟩ =>
    show win4_2.index ⟨(i 0).val / 5000, hN⟩ (0 : Fin 2) * 5000 ≤ (i 0).val ∧ (i 0).val < win4_2.index ⟨(i 0).val / 5000, hN⟩ (0 : Fin 2) * 5000 + 5000
    rw [e3]
    show (i 0).val / 5000 * 5000 ≤ (i 0).val ∧ (i 0).val < (i 0).val / 5000 * 5000 + 5000
    omega
  | ⟨1, _⟩ =>
    show win4_2.index ⟨(i 0).val / 5000, hN⟩ (1 : Fin 2) * 128 ≤ (i 1).val ∧ (i 1).val < win4_2.index ⟨(i 0).val / 5000, hN⟩ (1 : Fin 2) * 128 + 128
    rw [e4]
    omega

/-- The output array when the region ends: `G`, whole. -/
theorem final (c : Dev nD) : (dat4 V c).arrAt 2 cfg4.N = G V c :=
  (dat4 V c).arrAt_eq_of_cover 2 (G V c) (fun t _ => flushed_eq V c t) cover

end Cert.KernelIdeal.Layer4

end
-- ==== Proof.HeadBody.lean ====
/-
  The read-out head: `pooled · W1 + b1`, clamped at zero, then `· W2 + b2`, on 512 pooled graph vectors.

  The kernel computes it in one grid point on whole arrays, with the two products as matrix products into zeros and the
  biases cast to a row and broadcast; the reference computes it with two `dot_general`s and `broadcast_in_dim`s.  Entry by
  entry both are `(∑ k, max (∑ l, P l · W1 + b1, 0) k · W2) + b2`: the same function of the five arrays.
-/
import proofs.«170649_j40037685134216_1_alg».proof.Proof.Gen.KernelIdeal.Skeleton
import proofs.«170649_j40037685134216_1_alg».proof.Proof.HeadSpec
import proofs.«170649_j40037685134216_1_alg».proof.Proof.LibIdealLayout

noncomputable section

namespace Cert.KernelIdeal.HeadBody

open Cert.KernelIdeal Cert.KernelIdeal.Gen Idealize.ShloMosaic Idealize.ShloMosaic.TcCoe Idealize.SL.Sem
open Idealize.ShloMosaic.ValueIdx Idealize.ShloMosaic.IdealLayout

/-- The hidden activations of the head agree entry by entry. -/
theorem hidden_eq (P : Vec Ideal S512x128 .f32) (W1 : Vec Ideal S128x100 .f32) (b1 : Vec Ideal S100 .f32) (i : S512x100.Idx) :
    (maximumf (addf (matmul Cert.KernelIdeal.dot_S512x128_S128x100_S512x100_1_0_0_1_n_n none (truncf .bf16 (shapeCast S512x128 P shapeCasts_S512x128_S512x128) bitsLt_bf16_f32) (truncf .bf16 W1 bitsLt_bf16_f32) (constant (F := Ideal) S512x100 .f32 0x00000000#32))
        (broadcastTo S512x100 (shapeCast S1x100 b1 shapeCasts_S100_S1x100) broadcasts_S1x100_S512x100))
      (broadcast S512x100 (Scalar.ofBits .f32 0x00000000#32)) i : EReal)
    = maximumf (addf (Host.dotGeneral (φ₁ := .f32) (φ₂ := .f32) Cert.ReferenceIdeal.dot_S512x128_S128x100_S512x100_1_0_0_1_n_n none P W1)
          (broadcastInDim Cert.ReferenceIdeal.S512x100 ![0, 1] Cert.ReferenceIdeal.Gen.bcast_S1x100_S512x100_0_1 (broadcastInDim Cert.ReferenceIdeal.S1x100 ![1] Cert.ReferenceIdeal.Gen.bcast_S100_S1x100_1 b1)))
        (broadcastInDim Cert.ReferenceIdeal.S512x100 ![] Cert.ReferenceIdeal.Gen.bcast_S_S512x100 (constant (F := Ideal) Cert.ReferenceIdeal.S_ .f32 0x00000000#32)) i := by
  obtain ⟨p, c, rfl⟩ : ∃ (p : Fin 512) (c : Fin 100), i = ix2 p c := ⟨i 0, i 1, eq_ix2 i⟩
  refine congrArg₂ max (congrArg₂ (· + ·) ?_ ?_) ?_
  · exact congrFun (matmul_zero_eq_dotGeneral_of_eq (ψ₁ := .f32) (ψ₂ := .f32) Cert.KernelIdeal.dot_S512x128_S128x100_S512x100_1_0_0_1_n_n none
      (truncf .bf16 (shapeCast S512x128 P shapeCasts_S512x128_S512x128) bitsLt_bf16_f32) (truncf .bf16 W1 bitsLt_bf16_f32) P W1
      (fun y => congrFun (shapeCast_self P _) y) (fun _ => rfl)) _
  · exact (broadcastTo_row_apply b1 _ _ p c).trans (broadcastInDim_row_apply b1 _ _ p c).symm
  · rw [broadcastInDim_scalar_apply]
    rfl

/-- The second product: the kernel's, into zeros, of the clamped hidden activations is the reference's `dot_general`:
    entry by entry both are the sum over the 100 hidden units, whose activations agree (`hidden_eq`). -/
theorem second_eq (P : Vec Ideal S512x128 .f32) (W1 : Vec Ideal S128x100 .f32) (b1 : Vec Ideal S100 .f32) (W2 : Vec Ideal S100x4 .f32) :
    (matmul Cert.KernelIdeal.dot_S512x100_S100x4_S512x4_1_0_0_1_n_n none (truncf .bf16 (maximumf (addf (matmul Cert.KernelIdeal.dot_S512x128_S128x100_S512x100_1_0_0_1_n_n none (truncf .bf16 (shapeCast S512x128 P shapeCasts_S512x128_S512x128) bitsLt_bf16_f32) (truncf .bf16 W1 bitsLt_bf16_f32) (constant (F := Ideal) S512x100 .f32 0x00000000#32))
        (broadcastTo S512x100 (shapeCast S1x100 b1 shapeCasts_S100_S1x100) broadcasts_S1x100_S512x100))
      (broadcast S512x100 (Scalar.ofBits .f32 0x00000000#32))) bitsLt_bf16_f32) (truncf .bf16 W2 bitsLt_bf16_f32)
      (constant (F := Ideal) S512x4 .f32 0x00000000#32) : S512x4.Idx → EReal)
    = Host.dotGeneral (φ₁ := .f32) (φ₂ := .f32) Cert.ReferenceIdeal.dot_S512x100_S100x4_S512x4_1_0_0_1_n_n none (maximumf (addf (Host.dotGeneral (φ₁ := .f32) (φ₂ := .f32) Cert.ReferenceIdeal.dot_S512x128_S128x100_S512x100_1_0_0_1_n_n none P W1)
          (broadcastInDim Cert.ReferenceIdeal.S512x100 ![0, 1] Cert.ReferenceIdeal.Gen.bcast_S1x100_S512x100_0_1 (broadcastInDim Cert.ReferenceIdeal.S1x100 ![1] Cert.ReferenceIdeal.Gen.bcast_S100_S1x100_1 b1)))
        (broadcastInDim Cert.ReferenceIdeal.S512x100 ![] Cert.ReferenceIdeal.Gen.bcast_S_S512x100 (constant (F := Ideal) Cert.ReferenceIdeal.S_ .f32 0x00000000#32))) W2 := by
  funext j
  simp only [matmul, Host.dotGeneral]
  rw [Ideal.matmul_constant_zero_apply, Ideal.dotGeneral_apply]
  exact Finset.sum_congr rfl fun k _ => congrArg₂ (· * ·) (hidden_eq P W1 b1 _) rfl

/-- What the head's body stores is the head of the five arrays it loads. -/
theorem head_payload (P : Vec Ideal S512x128 .f32) (W1 : Vec Ideal S128x100 .f32) (b1 : Vec Ideal S100 .f32)
    (W2 : Vec Ideal S100x4 .f32) (b2 : Vec Ideal S4 .f32) :
    (k5_pay1 (F := Ideal) P W1 b1 W2 b2 : S512x4.Idx → EReal) = head P W1 b1 W2 b2 := by
  funext j
  obtain ⟨p, q, rfl⟩ : ∃ (p : Fin 512) (q : Fin 4), j = ix2 p q := ⟨j 0, j 1, eq_ix2 j⟩
  have hM := congrFun (second_eq P W1 b1 W2) (ix2 p q)
  have hB : (broadcastTo S512x4 (shapeCast S1x4 b2 shapeCasts_S4_S1x4) broadcasts_S1x4_S512x4 (ix2 p q) : EReal)
      = broadcastInDim Cert.ReferenceIdeal.S512x4 ![0, 1] Cert.ReferenceIdeal.Gen.bcast_S1x4_S512x4_0_1 (broadcastInDim Cert.ReferenceIdeal.S1x4 ![1] Cert.ReferenceIdeal.Gen.bcast_S4_S1x4_1 b2) (ix2 p q) :=
    (broadcastTo_row_apply b2 _ _ p q).trans (broadcastInDim_row_apply b2 _ _ p q).symm
  unfold k5_pay1 head
  exact congrArg₂ (· + ·) hM hB

end Cert.KernelIdeal.HeadBody

end
-- ==== Proof.Region5.lean ====
/-
  The sixth grid region (the read-out head), as one function of the arrays it finds.

  One grid point; each of its six windows has one block, the whole array.  So the point loads the pooled vectors, the two
  weight matrices and the two biases whole, and the output array ends as the head of those five arrays.
-/
import proofs.«170649_j40037685134216_1_alg».proof.Proof.Gen.KernelIdeal.Frame
import proofs.«170649_j40037685134216_1_alg».proof.Proof.HeadBody
import Idealize.ShloMosaic.Lib.Pipeline.Value

set_option maxRecDepth 16384

noncomputable section

namespace Cert.KernelIdeal.Head

open Cert.KernelIdeal Cert.KernelIdeal.Gen Idealize.ShloMosaic Idealize.ShloMosaic.TcCoe Idealize.SL.Sem
open Idealize.ShloMosaic.ValueIdx Cert.KernelIdeal.HeadBody
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps at the one grid point: every window takes block 0 on every axis. -/
theorem idx_facts : ∀ t : Fin cfg5.N, win5_0.index t (0 : Fin 2) = 0 ∧ win5_0.index t (1 : Fin 2) = 0
    ∧ win5_1.index t (0 : Fin 2) = 0 ∧ win5_1.index t (1 : Fin 2) = 0
    ∧ win5_2.index t (0 : Fin 1) = 0
    ∧ win5_3.index t (0 : Fin 2) = 0 ∧ win5_3.index t (1 : Fin 2) = 0
    ∧ win5_4.index t (0 : Fin 1) = 0
    ∧ win5_5.index t (0 : Fin 2) = 0 ∧ win5_5.index t (1 : Fin 2) = 0 :=
  (by decide +kernel : ∀ t : Fin grid5.N, _)

/-- The head of the pooled vectors, weights and biases, as the region finds them. -/
abbrev G (c : Dev nD) : FVec Ideal S512x4 .f32 :=
  head (V c main_v114) (V c main_arg3) (V c main_arg4) (V c main_arg5) (V c main_arg6)

/-- Window 0's one block is its whole array. -/
theorem blk0 (c : Dev nD) (t : Fin cfg5.N) : (iblk5 V c 0 t : S512x128.Idx → EReal) = V c main_v114 := by
  obtain ⟨e0, e1, e2, e3, e4, e5, e6, e7, e8, e9⟩ := idx_facts t
  funext y
  show V c main_v114 (((cfg5.win 0).blk t).view.emb y) = V c main_v114 y
  have h : ((cfg5.win 0).blk t).view.emb y = y := by
    funext a; apply Fin.ext
    match a with
    | ⟨0, _⟩ => show win5_0.index t (0 : Fin 2) * 512 + 1 * (y 0).val = (y 0).val; omega
    | ⟨1, _⟩ => show win5_0.index t (1 : Fin 2) * 128 + 1 * (y 1).val = (y 1).val; omega
  rw [h]

/-- Window 1's one block is its whole array. -/
theorem blk1 (c : Dev nD) (t : Fin cfg5.N) : (iblk5 V c 1 t : S128x100.Idx → EReal) = V c main_arg3 := by
  obtain ⟨e0, e1, e2, e3, e4, e5, e6, e7, e8, e9⟩ := idx_facts t
  funext y
  show V c main_arg3 (((cfg5.win 1).blk t).view.emb y) = V c main_arg3 y
  have h : ((cfg5.win 1).blk t).view.emb y = y := by
    funext a; apply Fin.ext
    match a with
    | ⟨0, _⟩ => show win5_1.index t (0 : Fin 2) * 128 + 1 * (y 0).val = (y 0).val; omega
    | ⟨1, _⟩ => show win5_1.index t (1 : Fin 2) * 100 + 1 * (y 1).val = (y 1).val; omega
  rw [h]

/-- Window 2's one block is its whole array. -/
theorem blk2 (c : Dev nD) (t : Fin cfg5.N) : (iblk5 V c 2 t : S100.Idx → EReal) = V c main_arg4 := by
  obtain ⟨e0, e1, e2, e3, e4, e5, e6, e7, e8, e9⟩ := idx_facts t
  funext y
  show V c main_arg4 (((cfg5.win 2).blk t).view.emb y) = V c main_arg4 y
  have h : ((cfg5.win 2).blk t).view.emb y = y := by
    funext a; apply Fin.ext
    match a with
    | ⟨0, _⟩ => show win5_2.index t (0 : Fin 1) * 100 + 1 * (y 0).val = (y 0).val; omega
  rw [h]

/-- Window 3's one block is its whole array. -/
theorem blk3 (c : Dev nD) (t : Fin cfg5.N) : (iblk5 V c 3 t : S100x4.Idx → EReal) = V c main_arg5 := by
  obtain ⟨e0, e1, e2, e3, e4, e5, e6, e7, e8, e9⟩ := idx_facts t
  funext y
  show V c main_arg5 (((cfg5.win 3).blk t).view.emb y) = V c main_arg5 y
  have h : ((cfg5.win 3).blk t).view.emb y = y := by
    funext a; apply Fin.ext
    match a with
    | ⟨0, _⟩ => show win5_3.index t (0 : Fin 2) * 100 + 1 * (y 0).val = (y 0).val; omega
    | ⟨1, _⟩ => show win5_3.index t (1 : Fin 2) * 4 + 1 * (y 1).val = (y 1).val; omega
  rw [h]

/-- Window 4's one block is its whole array. -/
theorem blk4 (c : Dev nD) (t : Fin cfg5.N) : (iblk5 V c 4 t : S4.Idx → EReal) = V c main_arg6 := by
  obtain ⟨e0, e1, e2, e3, e4, e5, e6, e7, e8, e9⟩ := idx_facts t
  funext y
  show V c main_arg6 (((cfg5.win 4).blk t).view.emb y) = V c main_arg6 y
  have h : ((cfg5.win 4).blk t).view.emb y = y := by
    funext a; apply Fin.ext
    match a with
    | ⟨0, _⟩ => show win5_4.index t (0 : Fin 1) * 4 + 1 * (y 0).val = (y 0).val; omega
  rw [h]

/-- What the one point writes back is `G`, whole. -/
theorem flushed_eq (c : Dev nD) (t : Fin cfg5.N) :
    (dat5 V c).flushed 5 t = ((cfg5.win 5).blk t).view.read (Elt Ideal) (G V c) := by
  show (cfg5.win 5).cut (grid5.coords t) ((dat5 V c).after 5 t) = _
  rw [after5_5]
  unfold out5_5
  rw [View.canon_unit_zero hz2]
  simp only [View.ld_unit_zero (S := S512x128) hz2, View.ld_unit_zero (S := S128x100) hz2, View.ld_unit_zero (S := S100) hz1,
    View.ld_unit_zero (S := S100x4) hz2, View.ld_unit_zero (S := S4) hz1]
  obtain ⟨e0, e1, e2, e3, e4, e5, e6, e7, e8, e9⟩ := idx_facts t
  funext j
  have hemb : ((cfg5.win 5).blk t).view.emb j = j := by
    funext a; apply Fin.ext
    match a with
    | ⟨0, _⟩ => show win5_5.index t (0 : Fin 2) * 512 + 1 * (j 0).val = (j 0).val; omega
    | ⟨1, _⟩ => show win5_5.index t (1 : Fin 2) * 4 + 1 * (j 1).val = (j 1).val; omega
  show k5_pay1 (iblk5 V c 0 t) (iblk5 V c 1 t) (iblk5 V c 2 t) (iblk5 V c 3 t) (iblk5 V c 4 t) j = G V c (((cfg5.win 5).blk t).view.emb j)
  rw [hemb]
  refine (congrFun (head_payload (iblk5 V c 0 t) (iblk5 V c 1 t) (iblk5 V c 2 t) (iblk5 V c 3 t) (iblk5 V c 4 t)) j).trans ?_
  rw [blk0 V c t, blk1 V c t, blk2 V c t, blk3 V c t, blk4 V c t]

/-- An index of the array is in the point's block iff each coordinate is in the block's range on its axis. -/
theorem mem_blk (t : Fin cfg5.N) (i : S512x4.Idx) :
    i ∈ ((cfg5.win 5).blk t).view.set ↔ ∀ a : Fin 2, win5_5.index t a * S512x4.size a ≤ (i a).val ∧ (i a).val < win5_5.index t a * S512x4.size a + S512x4.size a := by
  show i ∈ ((View.whole main_v115).slice (win5_5.rect t)).set ↔ _
  rw [View.set_slice_whole, Rect.mem_set_unit]
  exact Iff.rfl

/-- The one block covers the array. -/
theorem cover (i : S512x4.Idx) : ∃ t : Fin cfg5.N, (cfg5.win 5).flush t = true ∧ i ∈ ((cfg5.win 5).blk t).view.set := by
  have hi0 : (i 0).val < 512 := (i 0).isLt
  have hi1 : (i 1).val < 4 := (i 1).isLt
  obtain ⟨e0, e1, e2, e3, e4, e5, e6, e7, e8, e9⟩ := idx_facts t5_0
  refine ⟨t5_0, flush5_5 _, ?_⟩
  rw [mem_blk]
  intro a
  match a with
  | ⟨0, _⟩ => show win5_5.index t5_0 (0 : Fin 2) * 512 ≤ (i 0).val ∧ (i 0).val < win5_5.index t5_0 (0 : Fin 2) * 512 + 512; omega
  | ⟨1, _⟩ => show win5_5.index t5_0 (1 : Fin 2) * 4 ≤ (i 1).val ∧ (i 1).val < win5_5.index t5_0 (1 : Fin 2) * 4 + 4; omega

/-- The output array when the region ends: the head, whole. -/
theorem final (c : Dev nD) : (dat5 V c).arrAt 5 cfg5.N = G V c :=
  (dat5 V c).arrAt_eq_of_cover 5 (G V c) (fun t _ => flushed_eq V c t) cover

end Cert.KernelIdeal.Head

end
-- ==== Proof.Boundary.lean ====
/-
  The buffer contents at every boundary between @main's segments, for the buffers later segments read.

  A buffer keeps its contents across a stretch that does not write it and across a region none of whose windows is its
  array, so the edge lists, the edge weights and the parameter arrays are carried from where they are computed (or
  launched) to where they are read.  At each region's exit its output array is the whole-array function of the region's
  inputs; at each stretch's end the message passing (or the pooling) has been applied to it.  Read against the reference's
  stages one boundary at a time, the result buffer ends holding the reference's result at the kernel's own arguments.
-/
import proofs.«170649_j40037685134216_1_alg».proof.Proof.Gen.KernelIdeal.Frame
import proofs.«170649_j40037685134216_1_alg».proof.Proof.Stretches
import proofs.«170649_j40037685134216_1_alg».proof.Proof.Region0
import proofs.«170649_j40037685134216_1_alg».proof.Proof.Region1
import proofs.«170649_j40037685134216_1_alg».proof.Proof.Region2
import proofs.«170649_j40037685134216_1_alg».proof.Proof.Region3
import proofs.«170649_j40037685134216_1_alg».proof.Proof.Region4
import proofs.«170649_j40037685134216_1_alg».proof.Proof.Region5

set_option maxRecDepth 16384

noncomputable section

namespace Cert.KernelIdeal.Boundary

open Cert.KernelIdeal Cert.KernelIdeal.Gen Idealize.ShloMosaic Idealize.ShloMosaic.TcCoe Idealize.SL.Sem
open Cert.Gcn Cert.KernelIdeal.Stretch Cert.KernelIdeal.Body Cert.KernelIdeal.HeadBody

/-- A stretch of host operations leaves a buffer none of them writes as it was. -/
macro "skip_stretch" : tactic => `(tactic| (
  refine StableHlo.after_of_forall_not_mem _ _ (List.forall_iff_forall_mem.mp ?_)
  simp only [hostOps0, hostOps0_1, hostOps0_2, hostOps1, hostOps2, hostOps3, hostOps4, hostOps5, List.flatten_cons, List.flatten_nil,
    List.append_nil, List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg) (c : Dev nD)

theorem w0_arg0 : W0 m ρ c (Proc.devRef .tc main_arg0) = (m ((c : Thread nD τ).loc main_arg0)) := rfl
theorem w1_arg0 : W1 m ρ c (Proc.devRef .tc main_arg0) = (m ((c : Thread nD τ).loc main_arg0)) := (by skip_stretch : W1 m ρ c (Proc.devRef .tc main_arg0) = W0 m ρ c (Proc.devRef .tc main_arg0)).trans (w0_arg0 m ρ c)
theorem w2_arg0 : W2 m ρ c (Proc.devRef .tc main_arg0) = (m ((c : Thread nD τ).loc main_arg0)) := (by skip_stretch : W2 m ρ c (Proc.devRef .tc main_arg0) = W1 m ρ c (Proc.devRef .tc main_arg0)).trans (w1_arg0 m ρ c)
theorem w3_arg0 : W3 m ρ c (Proc.devRef .tc main_arg0) = (m ((c : Thread nD τ).loc main_arg0)) := (by skip_stretch : W3 m ρ c (Proc.devRef .tc main_arg0) = W2 m ρ c (Proc.devRef .tc main_arg0)).trans (w2_arg0 m ρ c)
theorem w0_arg1 : W0 m ρ c (Proc.devRef .tc main_arg1) = (m ((c : Thread nD τ).loc main_arg1)) := rfl
theorem w1_arg1 : W1 m ρ c (Proc.devRef .tc main_arg1) = (m ((c : Thread nD τ).loc main_arg1)) := (by skip_stretch : W1 m ρ c (Proc.devRef .tc main_arg1) = W0 m ρ c (Proc.devRef .tc main_arg1)).trans (w0_arg1 m ρ c)
theorem w2_arg1 : W2 m ρ c (Proc.devRef .tc main_arg1) = (m ((c : Thread nD τ).loc main_arg1)) := (by skip_stretch : W2 m ρ c (Proc.devRef .tc main_arg1) = W1 m ρ c (Proc.devRef .tc main_arg1)).trans (w1_arg1 m ρ c)
theorem w3_arg1 : W3 m ρ c (Proc.devRef .tc main_arg1) = (m ((c : Thread nD τ).loc main_arg1)) := (by skip_stretch : W3 m ρ c (Proc.devRef .tc main_arg1) = W2 m ρ c (Proc.devRef .tc main_arg1)).trans (w2_arg1 m ρ c)
theorem w4_arg1 : W4 m ρ c (Proc.devRef .tc main_arg1) = (m ((c : Thread nD τ).loc main_arg1)) := (W4_of_ne m ρ c main_arg1 (by decide)).trans (w3_arg1 m ρ c)
theorem w5_arg1 : W5 m ρ c (Proc.devRef .tc main_arg1) = (m ((c : Thread nD τ).loc main_arg1)) := (by skip_stretch : W5 m ρ c (Proc.devRef .tc main_arg1) = W4 m ρ c (Proc.devRef .tc main_arg1)).trans (w4_arg1 m ρ c)
theorem w6_arg1 : W6 m ρ c (Proc.devRef .tc main_arg1) = (m ((c : Thread nD τ).loc main_arg1)) := (W6_of_ne m ρ c main_arg1 (by decide)).trans (w5_arg1 m ρ c)
theorem w7_arg1 : W7 m ρ c (Proc.devRef .tc main_arg1) = (m ((c : Thread nD τ).loc main_arg1)) := (by skip_stretch : W7 m ρ c (Proc.devRef .tc main_arg1) = W6 m ρ c (Proc.devRef .tc main_arg1)).trans (w6_arg1 m ρ c)
theorem w8_arg1 : W8 m ρ c (Proc.devRef .tc main_arg1) = (m ((c : Thread nD τ).loc main_arg1)) := (W8_of_ne m ρ c main_arg1 (by decide)).trans (w7_arg1 m ρ c)
theorem w0_arg2 : W0 m ρ c (Proc.devRef .tc main_arg2) = (m ((c : Thread nD τ).loc main_arg2)) := rfl
theorem w1_arg2 : W1 m ρ c (Proc.devRef .tc main_arg2) = (m ((c : Thread nD τ).loc main_arg2)) := (by skip_stretch : W1 m ρ c (Proc.devRef .tc main_arg2) = W0 m ρ c (Proc.devRef .tc main_arg2)).trans (w0_arg2 m ρ c)
theorem w2_arg2 : W2 m ρ c (Proc.devRef .tc main_arg2) = (m ((c : Thread nD τ).loc main_arg2)) := (by skip_stretch : W2 m ρ c (Proc.devRef .tc main_arg2) = W1 m ρ c (Proc.devRef .tc main_arg2)).trans (w1_arg2 m ρ c)
theorem w3_arg2 : W3 m ρ c (Proc.devRef .tc main_arg2) = (m ((c : Thread nD τ).loc main_arg2)) := (by skip_stretch : W3 m ρ c (Proc.devRef .tc main_arg2) = W2 m ρ c (Proc.devRef .tc main_arg2)).trans (w2_arg2 m ρ c)
theorem w4_arg2 : W4 m ρ c (Proc.devRef .tc main_arg2) = (m ((c : Thread nD τ).loc main_arg2)) := (W4_of_ne m ρ c main_arg2 (by decide)).trans (w3_arg2 m ρ c)
theorem w5_arg2 : W5 m ρ c (Proc.devRef .tc main_arg2) = (m ((c : Thread nD τ).loc main_arg2)) := (by skip_stretch : W5 m ρ c (Proc.devRef .tc main_arg2) = W4 m ρ c (Proc.devRef .tc main_arg2)).trans (w4_arg2 m ρ c)
theorem w6_arg2 : W6 m ρ c (Proc.devRef .tc main_arg2) = (m ((c : Thread nD τ).loc main_arg2)) := (W6_of_ne m ρ c main_arg2 (by decide)).trans (w5_arg2 m ρ c)
theorem w7_arg2 : W7 m ρ c (Proc.devRef .tc main_arg2) = (m ((c : Thread nD τ).loc main_arg2)) := (by skip_stretch : W7 m ρ c (Proc.devRef .tc main_arg2) = W6 m ρ c (Proc.devRef .tc main_arg2)).trans (w6_arg2 m ρ c)
theorem w8_arg2 : W8 m ρ c (Proc.devRef .tc main_arg2) = (m ((c : Thread nD τ).loc main_arg2)) := (W8_of_ne m ρ c main_arg2 (by decide)).trans (w7_arg2 m ρ c)
theorem w9_arg2 : W9 m ρ c (Proc.devRef .tc main_arg2) = (m ((c : Thread nD τ).loc main_arg2)) := (by skip_stretch : W9 m ρ c (Proc.devRef .tc main_arg2) = W8 m ρ c (Proc.devRef .tc main_arg2)).trans (w8_arg2 m ρ c)
theorem w10_arg2 : W10 m ρ c (Proc.devRef .tc main_arg2) = (m ((c : Thread nD τ).loc main_arg2)) := (W10_of_ne m ρ c main_arg2 (by decide)).trans (w9_arg2 m ρ c)
theorem w0_arg7 : W0 m ρ c (Proc.devRef .tc main_arg7) = (m ((c : Thread nD τ).loc main_arg7)) := rfl
theorem w1_v3 : W1 m ρ c (Proc.devRef .tc main_v3) = Cert.ReferenceIdeal.ReadP.val_main_v3 (F := Ideal) (m ((c : Thread nD τ).loc main_arg7)) := (s0_row (W0 m ρ c)).trans (by rw [w0_arg7])
theorem w1_v6 : W1 m ρ c (Proc.devRef .tc main_v6) = Cert.ReferenceIdeal.ReadP.val_main_v6 (F := Ideal) (m ((c : Thread nD τ).loc main_arg7)) := (s0_col (W0 m ρ c)).trans (by rw [w0_arg7])
theorem w1_v12 : W1 m ρ c (Proc.devRef .tc main_v12) = Cert.ReferenceIdeal.ReadP.val_main_v12 (F := Ideal) (m ((c : Thread nD τ).loc main_arg7)) := (s0_mask (W0 m ρ c)).trans (by rw [w0_arg7])
theorem w1_v13 : W1 m ρ c (Proc.devRef .tc main_v13) = Cert.ReferenceIdeal.ReadP.val_main_v13 (F := Ideal) (m ((c : Thread nD τ).loc main_arg7)) := (s0_rsqrt (W0 m ρ c)).trans (by rw [w0_arg7])
theorem w1_cst_2 : W1 m ρ c (Proc.devRef .tc main_cst_2) = Cert.ReferenceIdeal.ReadP.val_main_cst_2 (F := Ideal) := s0_zero (W0 m ρ c)
theorem w2_v3 : W2 m ρ c (Proc.devRef .tc main_v3) = Cert.ReferenceIdeal.ReadP.val_main_v3 (F := Ideal) (m ((c : Thread nD τ).loc main_arg7)) := (by skip_stretch : W2 m ρ c (Proc.devRef .tc main_v3) = W1 m ρ c (Proc.devRef .tc main_v3)).trans (w1_v3 m ρ c)
theorem w3_v3 : W3 m ρ c (Proc.devRef .tc main_v3) = Cert.ReferenceIdeal.ReadP.val_main_v3 (F := Ideal) (m ((c : Thread nD τ).loc main_arg7)) := (by skip_stretch : W3 m ρ c (Proc.devRef .tc main_v3) = W2 m ρ c (Proc.devRef .tc main_v3)).trans (w2_v3 m ρ c)
theorem w4_v3 : W4 m ρ c (Proc.devRef .tc main_v3) = Cert.ReferenceIdeal.ReadP.val_main_v3 (F := Ideal) (m ((c : Thread nD τ).loc main_arg7)) := (W4_of_ne m ρ c main_v3 (by decide)).trans (w3_v3 m ρ c)
theorem w5_v3 : W5 m ρ c (Proc.devRef .tc main_v3) = Cert.ReferenceIdeal.ReadP.val_main_v3 (F := Ideal) (m ((c : Thread nD τ).loc main_arg7)) := (by skip_stretch : W5 m ρ c (Proc.devRef .tc main_v3) = W4 m ρ c (Proc.devRef .tc main_v3)).trans (w4_v3 m ρ c)
theorem w6_v3 : W6 m ρ c (Proc.devRef .tc main_v3) = Cert.ReferenceIdeal.ReadP.val_main_v3 (F := Ideal) (m ((c : Thread nD τ).loc main_arg7)) := (W6_of_ne m ρ c main_v3 (by decide)).trans (w5_v3 m ρ c)
theorem w7_v3 : W7 m ρ c (Proc.devRef .tc main_v3) = Cert.ReferenceIdeal.ReadP.val_main_v3 (F := Ideal) (m ((c : Thread nD τ).loc main_arg7)) := (by skip_stretch : W7 m ρ c (Proc.devRef .tc main_v3) = W6 m ρ c (Proc.devRef .tc main_v3)).trans (w6_v3 m ρ c)
theorem w8_v3 : W8 m ρ c (Proc.devRef .tc main_v3) = Cert.ReferenceIdeal.ReadP.val_main_v3 (F := Ideal) (m ((c : Thread nD τ).loc main_arg7)) := (W8_of_ne m ρ c main_v3 (by decide)).trans (w7_v3 m ρ c)
theorem w9_v3 : W9 m ρ c (Proc.devRef .tc main_v3) = Cert.ReferenceIdeal.ReadP.val_main_v3 (F := Ideal) (m ((c : Thread nD τ).loc main_arg7)) := (by skip_stretch : W9 m ρ c (Proc.devRef .tc main_v3) = W8 m ρ c (Proc.devRef .tc main_v3)).trans (w8_v3 m ρ c)
theorem w10_v3 : W10 m ρ c (Proc.devRef .tc main_v3) = Cert.ReferenceIdeal.ReadP.val_main_v3 (F := Ideal) (m ((c : Thread nD τ).loc main_arg7)) := (W10_of_ne m ρ c main_v3 (by decide)).trans (w9_v3 m ρ c)
theorem w2_v6 : W2 m ρ c (Proc.devRef .tc main_v6) = Cert.ReferenceIdeal.ReadP.val_main_v6 (F := Ideal) (m ((c : Thread nD τ).loc main_arg7)) := (by skip_stretch : W2 m ρ c (Proc.devRef .tc main_v6) = W1 m ρ c (Proc.devRef .tc main_v6)).trans (w1_v6 m ρ c)
theorem w3_v6 : W3 m ρ c (Proc.devRef .tc main_v6) = Cert.ReferenceIdeal.ReadP.val_main_v6 (F := Ideal) (m ((c : Thread nD τ).loc main_arg7)) := (by skip_stretch : W3 m ρ c (Proc.devRef .tc main_v6) = W2 m ρ c (Proc.devRef .tc main_v6)).trans (w2_v6 m ρ c)
theorem w4_v6 : W4 m ρ c (Proc.devRef .tc main_v6) = Cert.ReferenceIdeal.ReadP.val_main_v6 (F := Ideal) (m ((c : Thread nD τ).loc main_arg7)) := (W4_of_ne m ρ c main_v6 (by decide)).trans (w3_v6 m ρ c)
theorem w5_v6 : W5 m ρ c (Proc.devRef .tc main_v6) = Cert.ReferenceIdeal.ReadP.val_main_v6 (F := Ideal) (m ((c : Thread nD τ).loc main_arg7)) := (by skip_stretch : W5 m ρ c (Proc.devRef .tc main_v6) = W4 m ρ c (Proc.devRef .tc main_v6)).trans (w4_v6 m ρ c)
theorem w6_v6 : W6 m ρ c (Proc.devRef .tc main_v6) = Cert.ReferenceIdeal.ReadP.val_main_v6 (F := Ideal) (m ((c : Thread nD τ).loc main_arg7)) := (W6_of_ne m ρ c main_v6 (by decide)).trans (w5_v6 m ρ c)
theorem w7_v6 : W7 m ρ c (Proc.devRef .tc main_v6) = Cert.ReferenceIdeal.ReadP.val_main_v6 (F := Ideal) (m ((c : Thread nD τ).loc main_arg7)) := (by skip_stretch : W7 m ρ c (Proc.devRef .tc main_v6) = W6 m ρ c (Proc.devRef .tc main_v6)).trans (w6_v6 m ρ c)
theorem w8_v6 : W8 m ρ c (Proc.devRef .tc main_v6) = Cert.ReferenceIdeal.ReadP.val_main_v6 (F := Ideal) (m ((c : Thread nD τ).loc main_arg7)) := (W8_of_ne m ρ c main_v6 (by decide)).trans (w7_v6 m ρ c)
theorem w9_v6 : W9 m ρ c (Proc.devRef .tc main_v6) = Cert.ReferenceIdeal.ReadP.val_main_v6 (F := Ideal) (m ((c : Thread nD τ).loc main_arg7)) := (by skip_stretch : W9 m ρ c (Proc.devRef .tc main_v6) = W8 m ρ c (Proc.devRef .tc main_v6)).trans (w8_v6 m ρ c)
theorem w10_v6 : W10 m ρ c (Proc.devRef .tc main_v6) = Cert.ReferenceIdeal.ReadP.val_main_v6 (F := Ideal) (m ((c : Thread nD τ).loc main_arg7)) := (W10_of_ne m ρ c main_v6 (by decide)).trans (w9_v6 m ρ c)
theorem w2_v14 : W2 m ρ c (Proc.devRef .tc main_v14) = Cert.ReferenceIdeal.ReadP.val_main_v14 (F := Ideal) (m ((c : Thread nD τ).loc main_arg7)) := (s01_dinv (W1 m ρ c)).trans (by rw [w1_v12, w1_v13, w1_cst_2]; exact (ref_dinv _).symm)
theorem w3_v29 : W3 m ρ c (Proc.devRef .tc main_v29) = Cert.ReferenceIdeal.ReadP.val_main_v29 (F := Ideal) (m ((c : Thread nD τ).loc main_arg7)) := (s02_norm (W2 m ρ c)).trans (by rw [w2_v3, w2_v6, w2_v14]; exact (ref_norm _).symm)
theorem w4_v29 : W4 m ρ c (Proc.devRef .tc main_v29) = Cert.ReferenceIdeal.ReadP.val_main_v29 (F := Ideal) (m ((c : Thread nD τ).loc main_arg7)) := (W4_of_ne m ρ c main_v29 (by decide)).trans (w3_v29 m ρ c)
theorem w5_v29 : W5 m ρ c (Proc.devRef .tc main_v29) = Cert.ReferenceIdeal.ReadP.val_main_v29 (F := Ideal) (m ((c : Thread nD τ).loc main_arg7)) := (by skip_stretch : W5 m ρ c (Proc.devRef .tc main_v29) = W4 m ρ c (Proc.devRef .tc main_v29)).trans (w4_v29 m ρ c)
theorem w6_v29 : W6 m ρ c (Proc.devRef .tc main_v29) = Cert.ReferenceIdeal.ReadP.val_main_v29 (F := Ideal) (m ((c : Thread nD τ).loc main_arg7)) := (W6_of_ne m ρ c main_v29 (by decide)).trans (w5_v29 m ρ c)
theorem w7_v29 : W7 m ρ c (Proc.devRef .tc main_v29) = Cert.ReferenceIdeal.ReadP.val_main_v29 (F := Ideal) (m ((c : Thread nD τ).loc main_arg7)) := (by skip_stretch : W7 m ρ c (Proc.devRef .tc main_v29) = W6 m ρ c (Proc.devRef .tc main_v29)).trans (w6_v29 m ρ c)
theorem w8_v29 : W8 m ρ c (Proc.devRef .tc main_v29) = Cert.ReferenceIdeal.ReadP.val_main_v29 (F := Ideal) (m ((c : Thread nD τ).loc main_arg7)) := (W8_of_ne m ρ c main_v29 (by decide)).trans (w7_v29 m ρ c)
theorem w9_v29 : W9 m ρ c (Proc.devRef .tc main_v29) = Cert.ReferenceIdeal.ReadP.val_main_v29 (F := Ideal) (m ((c : Thread nD τ).loc main_arg7)) := (by skip_stretch : W9 m ρ c (Proc.devRef .tc main_v29) = W8 m ρ c (Proc.devRef .tc main_v29)).trans (w8_v29 m ρ c)
theorem w10_v29 : W10 m ρ c (Proc.devRef .tc main_v29) = Cert.ReferenceIdeal.ReadP.val_main_v29 (F := Ideal) (m ((c : Thread nD τ).loc main_arg7)) := (W10_of_ne m ρ c main_v29 (by decide)).trans (w9_v29 m ρ c)
theorem w3_v31 : W3 m ρ c (Proc.devRef .tc main_v31) = Cert.ReferenceIdeal.ReadP.val_main_v31 (F := Ideal) (m ((c : Thread nD τ).loc main_arg1)) := (s02_w (W2 m ρ c)).trans (by rw [w2_arg1])
/-- Region 0's output, whole: the reference's stage of the same name. -/
theorem w4_v32 : W4 m ρ c (Proc.devRef .tc main_v32) = Cert.ReferenceIdeal.ReadP.val_main_v34 (F := Ideal) (m ((c : Thread nD τ).loc main_arg0)) (m ((c : Thread nD τ).loc main_arg1)) :=
  (W4_arr m ρ c 2).trans ((Layer0.final (V3 m ρ) c).trans (by
    show Host.dotGeneral (F := Ideal) (φ₁ := .f32) (φ₂ := .f32) Cert.ReferenceIdeal.dot_S100000x128_S128x128_S100000x128_1_0_0_1_n_n none (W3 m ρ c (Proc.devRef .tc main_arg0)) (W3 m ρ c (Proc.devRef .tc main_v31)) = _
    rw [w3_arg0, w3_v31]
    exact (ref_xw0 _ _).symm))
theorem w5_v45 : W5 m ρ c (Proc.devRef .tc main_v45) = Cert.ReferenceIdeal.ReadP.val_main_v47 (F := Ideal) (m ((c : Thread nD τ).loc main_arg0)) (m ((c : Thread nD τ).loc main_arg1)) (m ((c : Thread nD τ).loc main_arg7)) := (s1_agg (W4 m ρ c)).trans (by rw [w4_v32, w4_v3, w4_v6, w4_v29]; exact (ref_agg0 _ _ _).symm)
theorem w5_v47 : W5 m ρ c (Proc.devRef .tc main_v47) = Cert.ReferenceIdeal.ReadP.val_main_v33 (F := Ideal) (m ((c : Thread nD τ).loc main_arg2)) := (s1_b (W4 m ρ c)).trans (by rw [w4_arg2])
theorem w5_v49 : W5 m ρ c (Proc.devRef .tc main_v49) = Cert.ReferenceIdeal.ReadP.val_main_v53 (F := Ideal) (m ((c : Thread nD τ).loc main_arg1)) := (s1_w (W4 m ρ c)).trans (by rw [w4_arg1])
/-- Region 1's output, whole: the reference's stage of the same name. -/
theorem w6_v50 : W6 m ρ c (Proc.devRef .tc main_v50) = Cert.ReferenceIdeal.ReadP.val_main_v56 (F := Ideal) (m ((c : Thread nD τ).loc main_arg0)) (m ((c : Thread nD τ).loc main_arg1)) (m ((c : Thread nD τ).loc main_arg2)) (m ((c : Thread nD τ).loc main_arg7)) :=
  (W6_arr m ρ c 3).trans ((Layer1.final (V5 m ρ) c).trans (by
    show Host.dotGeneral (F := Ideal) (φ₁ := .f32) (φ₂ := .f32) Cert.ReferenceIdeal.dot_S100000x128_S128x128_S100000x128_1_0_0_1_n_n none (hidden (W5 m ρ c (Proc.devRef .tc main_v45)) (W5 m ρ c (Proc.devRef .tc main_v47))) (W5 m ρ c (Proc.devRef .tc main_v49)) = _
    rw [w5_v45, w5_v47, w5_v49]
    exact (ref_xw1 _ _ _ _).symm))
theorem w7_v63 : W7 m ρ c (Proc.devRef .tc main_v63) = Cert.ReferenceIdeal.ReadP.val_main_v69 (F := Ideal) (m ((c : Thread nD τ).loc main_arg0)) (m ((c : Thread nD τ).loc main_arg1)) (m ((c : Thread nD τ).loc main_arg2)) (m ((c : Thread nD τ).loc main_arg7)) := (s2_agg (W6 m ρ c)).trans (by rw [w6_v50, w6_v3, w6_v6, w6_v29]; exact (ref_agg1 _ _ _ _).symm)
theorem w7_v65 : W7 m ρ c (Proc.devRef .tc main_v65) = Cert.ReferenceIdeal.ReadP.val_main_v55 (F := Ideal) (m ((c : Thread nD τ).loc main_arg2)) := (s2_b (W6 m ρ c)).trans (by rw [w6_arg2])
theorem w7_v67 : W7 m ρ c (Proc.devRef .tc main_v67) = Cert.ReferenceIdeal.ReadP.val_main_v75 (F := Ideal) (m ((c : Thread nD τ).loc main_arg1)) := (s2_w (W6 m ρ c)).trans (by rw [w6_arg1])
/-- Region 2's output, whole: the reference's stage of the same name. -/
theorem w8_v68 : W8 m ρ c (Proc.devRef .tc main_v68) = Cert.ReferenceIdeal.ReadP.val_main_v78 (F := Ideal) (m ((c : Thread nD τ).loc main_arg0)) (m ((c : Thread nD τ).loc main_arg1)) (m ((c : Thread nD τ).loc main_arg2)) (m ((c : Thread nD τ).loc main_arg7)) :=
  (W8_arr m ρ c 3).trans ((Layer2.final (V7 m ρ) c).trans (by
    show Host.dotGeneral (F := Ideal) (φ₁ := .f32) (φ₂ := .f32) Cert.ReferenceIdeal.dot_S100000x128_S128x128_S100000x128_1_0_0_1_n_n none (hidden (W7 m ρ c (Proc.devRef .tc main_v63)) (W7 m ρ c (Proc.devRef .tc main_v65))) (W7 m ρ c (Proc.devRef .tc main_v67)) = _
    rw [w7_v63, w7_v65, w7_v67]
    exact (ref_xw2 _ _ _ _).symm))
theorem w9_v81 : W9 m ρ c (Proc.devRef .tc main_v81) = Cert.ReferenceIdeal.ReadP.val_main_v91 (F := Ideal) (m ((c : Thread nD τ).loc main_arg0)) (m ((c : Thread nD τ).loc main_arg1)) (m ((c : Thread nD τ).loc main_arg2)) (m ((c : Thread nD τ).loc main_arg7)) := (s3_agg (W8 m ρ c)).trans (by rw [w8_v68, w8_v3, w8_v6, w8_v29]; exact (ref_agg2 _ _ _ _).symm)
theorem w9_v83 : W9 m ρ c (Proc.devRef .tc main_v83) = Cert.ReferenceIdeal.ReadP.val_main_v77 (F := Ideal) (m ((c : Thread nD τ).loc main_arg2)) := (s3_b (W8 m ρ c)).trans (by rw [w8_arg2])
theorem w9_v85 : W9 m ρ c (Proc.devRef .tc main_v85) = Cert.ReferenceIdeal.ReadP.val_main_v97 (F := Ideal) (m ((c : Thread nD τ).loc main_arg1)) := (s3_w (W8 m ρ c)).trans (by rw [w8_arg1])
/-- Region 3's output, whole: the reference's stage of the same name. -/
theorem w10_v86 : W10 m ρ c (Proc.devRef .tc main_v86) = Cert.ReferenceIdeal.ReadP.val_main_v100 (F := Ideal) (m ((c : Thread nD τ).loc main_arg0)) (m ((c : Thread nD τ).loc main_arg1)) (m ((c : Thread nD τ).loc main_arg2)) (m ((c : Thread nD τ).loc main_arg7)) :=
  (W10_arr m ρ c 3).trans ((Layer3.final (V9 m ρ) c).trans (by
    show Host.dotGeneral (F := Ideal) (φ₁ := .f32) (φ₂ := .f32) Cert.ReferenceIdeal.dot_S100000x128_S128x128_S100000x128_1_0_0_1_n_n none (hidden (W9 m ρ c (Proc.devRef .tc main_v81)) (W9 m ρ c (Proc.devRef .tc main_v83))) (W9 m ρ c (Proc.devRef .tc main_v85)) = _
    rw [w9_v81, w9_v83, w9_v85]
    exact (ref_xw3 _ _ _ _).symm))
theorem w11_v99 : W11 m ρ c (Proc.devRef .tc main_v99) = Cert.ReferenceIdeal.ReadP.val_main_v113 (F := Ideal) (m ((c : Thread nD τ).loc main_arg0)) (m ((c : Thread nD τ).loc main_arg1)) (m ((c : Thread nD τ).loc main_arg2)) (m ((c : Thread nD τ).loc main_arg7)) := (s4_agg (W10 m ρ c)).trans (by rw [w10_v86, w10_v3, w10_v6, w10_v29]; exact (ref_agg3 _ _ _ _).symm)
theorem w11_v101 : W11 m ρ c (Proc.devRef .tc main_v101) = Cert.ReferenceIdeal.ReadP.val_main_v99 (F := Ideal) (m ((c : Thread nD τ).loc main_arg2)) := (s4_b (W10 m ρ c)).trans (by rw [w10_arg2])
/-- Region 4's output, whole: the reference's stage of the same name. -/
theorem w12_v102 : W12 m ρ c (Proc.devRef .tc main_v102) = Cert.ReferenceIdeal.ReadP.val_main_v116 (F := Ideal) (m ((c : Thread nD τ).loc main_arg0)) (m ((c : Thread nD τ).loc main_arg1)) (m ((c : Thread nD τ).loc main_arg2)) (m ((c : Thread nD τ).loc main_arg7)) :=
  (W12_arr m ρ c 2).trans ((Layer4.final (V11 m ρ) c).trans (by
    show addf (F := Ideal) (φ := .f32) (W11 m ρ c (Proc.devRef .tc main_v99)) (biasRows (W11 m ρ c (Proc.devRef .tc main_v101))) = _
    rw [w11_v99, w11_v101]
    exact (ref_out _ _ _ _).symm))
theorem w12_arg8 : W12 m ρ c (Proc.devRef .tc main_arg8) = (m ((c : Thread nD τ).loc main_arg8)) :=
  ((W14_of_ne m ρ c main_arg8 (by decide)).trans (by skip_stretch : W13 m ρ c (Proc.devRef .tc main_arg8) = W12 m ρ c (Proc.devRef .tc main_arg8))).symm.trans (W14_main_arg8 m ρ c)
theorem w13_v114 : W13 m ρ c (Proc.devRef .tc main_v114) = Cert.ReferenceIdeal.ReadP.val_main_v128 (F := Ideal) (m ((c : Thread nD τ).loc main_arg0)) (m ((c : Thread nD τ).loc main_arg1)) (m ((c : Thread nD τ).loc main_arg2)) (m ((c : Thread nD τ).loc main_arg7)) (m ((c : Thread nD τ).loc main_arg8)) := (s5_pool (W12 m ρ c)).trans (by rw [w12_v102, w12_arg8]; exact (ref_pool _ _ _ _ _).symm)
theorem w13_arg3 : W13 m ρ c (Proc.devRef .tc main_arg3) = (m ((c : Thread nD τ).loc main_arg3)) :=
  ((W14_arr m ρ c 1).trans (((dat5 (V13 m ρ) c).arrAt_in 1 rfl _).trans (A_eq5 (V13 m ρ) c 1))).symm.trans (W14_main_arg3 m ρ c)
theorem w13_arg4 : W13 m ρ c (Proc.devRef .tc main_arg4) = (m ((c : Thread nD τ).loc main_arg4)) :=
  ((W14_arr m ρ c 2).trans (((dat5 (V13 m ρ) c).arrAt_in 2 rfl _).trans (A_eq5 (V13 m ρ) c 2))).symm.trans (W14_main_arg4 m ρ c)
theorem w13_arg5 : W13 m ρ c (Proc.devRef .tc main_arg5) = (m ((c : Thread nD τ).loc main_arg5)) :=
  ((W14_arr m ρ c 3).trans (((dat5 (V13 m ρ) c).arrAt_in 3 rfl _).trans (A_eq5 (V13 m ρ) c 3))).symm.trans (W14_main_arg5 m ρ c)
theorem w13_arg6 : W13 m ρ c (Proc.devRef .tc main_arg6) = (m ((c : Thread nD τ).loc main_arg6)) :=
  ((W14_arr m ρ c 4).trans (((dat5 (V13 m ρ) c).arrAt_in 4 rfl _).trans (A_eq5 (V13 m ρ) c 4))).symm.trans (W14_main_arg6 m ρ c)
/-- The result buffer at the end of @main: the reference's result stage at the kernel's own arguments. -/
theorem w14_v115 : W14 m ρ c (Proc.devRef .tc main_v115) = Cert.ReferenceIdeal.ReadP.val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W14_arr m ρ c 5).trans ((Head.final (V13 m ρ) c).trans (by
    show head (W13 m ρ c (Proc.devRef .tc main_v114)) (W13 m ρ c (Proc.devRef .tc main_arg3)) (W13 m ρ c (Proc.devRef .tc main_arg4)) (W13 m ρ c (Proc.devRef .tc main_arg5)) (W13 m ρ c (Proc.devRef .tc main_arg6)) = _
    rw [w13_v114, w13_arg3, w13_arg4, w13_arg5, w13_arg6]
    exact (ref_head _ _ _ _ _ _ _ _ _).symm))

end Cert.KernelIdeal.Boundary

end
-- ==== Proof.lean ====
/-
  A four-layer graph convolution network with mean pooling and a two-layer read-out, as a Pallas kernel program against
  its jnp reference, at the exact (extended-real) instance.

  Both programs compute, from node features `x`, stacked weights `Ws` and biases `bs`, the read-out parameters, the edge
  list and the graph assignment:
      agg₀ = P (x · Ws₀),  aggᵢ = P (max (aggᵢ₋₁ + bsᵢ₋₁, 0) · Wsᵢ)  (i = 1, 2, 3),  h = agg₃ + bs₃,
      pooled = mean of h's rows by graph,  result = max (pooled · W₁ + b₁, 0) · W₂ + b₂,
  where `P` is the normalised message passing over the edges with self-loops (gather, scale by the edge weight, sum into
  the target rows).  The reference computes each dense map with one whole-array product on the host; the kernel computes
  it in a grid region, 5000 rows at a time (the read-out in one step), with its bf16 casts the identity at this
  instance.  `P` and the pooling are the same host operations in both programs and are never opened.

  The proof: each grid region's output array is one whole-array function of the arrays it finds (a tile's product into
  zeros is that tile's rows of the whole product); the buffer contents are followed across @main's fourteen segments and
  named, boundary by boundary, by the reference's own stages; so the kernel's result buffer ends at the reference's
  result stage of the kernel's arguments, and the reference's run ends at the same stage of its own, equal, arguments.
  No law beyond renaming a summation index is used, and the precondition is never opened.

  The ideal pass rewrote nothing, so the preservation claim is trivial; the three frame claims are the generated frames
  (the reference's is its run with the result dropped).
-/
import proofs.«170649_j40037685134216_1_alg».proof.Defs
import proofs.«170649_j40037685134216_1_alg».proof.Proof.Gen.Kernel
import proofs.«170649_j40037685134216_1_alg».proof.Proof.Gen.Kernel.Skeleton
import proofs.«170649_j40037685134216_1_alg».proof.Proof.Gen.Kernel.Launch
import proofs.«170649_j40037685134216_1_alg».proof.Proof.Gen.Kernel.Points
import proofs.«170649_j40037685134216_1_alg».proof.Proof.Gen.Kernel.Frame
import proofs.«170649_j40037685134216_1_alg».proof.Proof.Gen.KernelIdeal
import proofs.«170649_j40037685134216_1_alg».proof.Proof.Gen.KernelIdeal.Skeleton
import proofs.«170649_j40037685134216_1_alg».proof.Proof.Gen.KernelIdeal.Launch
import proofs.«170649_j40037685134216_1_alg».proof.Proof.Gen.KernelIdeal.Points
import proofs.«170649_j40037685134216_1_alg».proof.Proof.Gen.KernelIdeal.Frame
import proofs.«170649_j40037685134216_1_alg».proof.Proof.Gen.ReferenceIdeal
import proofs.«170649_j40037685134216_1_alg».proof.Proof.Gen.Pre_finite_inputs
import proofs.«170649_j40037685134216_1_alg».proof.Proof.KernelRun
import proofs.«170649_j40037685134216_1_alg».proof.Proof.Boundary
import proofs.«170649_j40037685134216_1_alg».proof.Proof.RefRead
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no grid region: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the nine arguments both programs end with the result buffer at the reference's result
    stage of those arguments. -/
theorem algebraic : Cert.algebraic_KernelIdeal_ReferenceIdeal := by
  intro m ρ m' ρ' _ hagree
  refine ⟨fun c => Cert.ReferenceIdeal.ReadP.val_main_v137 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c => ⟨(h c).1.trans (Cert.KernelIdeal.Boundary.w14_v115 m ρ c), (h c).2⟩)
      (Cert.KernelIdeal.ResultRun.run m ρ)
  · refine (θ_run Cert.ReferenceIdeal.defs _ _).mono (fun r h c => ⟨(h c).1.trans ?_, (h c).2⟩) (Cert.ReferenceIdeal.ValueP.run (F := Ideal) m' ρ')
    obtain ⟨h0, h1, h2, h3, h4, h5, h6, h7, h8⟩ := hagree c
    rw [Cert.ReferenceIdeal.ReadP.val_main_v137_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
